-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1000000 : Shape := ⟨2, ![2, 1000000]⟩
abbrev S1000000 : Shape := ⟨1, ![1000000]⟩
abbrev S256x64 : Shape := ⟨2, ![256, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : IVec S2x1000000 32) (main_arg2 : FVec F S1000000 .f32) (main_arg3 : FVec F S256x64 .f32) (main_arg4 : FVec F S64 .f32) (main_arg5 : FVec F S128x1 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x256 : Shape := ⟨2, ![100000, 256]⟩
abbrev S2x1000000 : Shape := ⟨2, ![2, 1000000]⟩
abbrev S1000000 : Shape := ⟨1, ![1000000]⟩
abbrev S256x64 : Shape := ⟨2, ![256, 64]⟩
abbrev S64 : Shape := ⟨1, ![64]⟩
abbrev S128x1 : Shape := ⟨2, ![128, 1]⟩
abbrev S1 : Shape := ⟨1, ![1]⟩
abbrev S1x64 : Shape := ⟨2, ![1, 64]⟩
abbrev S64x1 : Shape := ⟨2, ![64, 1]⟩
abbrev S64x2 : Shape := ⟨2, ![64, 2]⟩
abbrev S100000x66 : Shape := ⟨2, ![100000, 66]⟩
abbrev S5000x256 : Shape := ⟨2, ![5000, 256]⟩
abbrev S5000x66 : Shape := ⟨2, ![5000, 66]⟩
abbrev S5000x64 : Shape := ⟨2, ![5000, 64]⟩
abbrev S5000x2 : Shape := ⟨2, ![5000, 2]⟩
abbrev S100000x64 : Shape := ⟨2, ![100000, 64]⟩
abbrev S100000x1 : Shape := ⟨2, ![100000, 1]⟩
abbrev S100000 : Shape := ⟨1, ![100000]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩

abbrev nBuf : Space → Nat
  | .hbm => 92
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S1000000, .f32⟩
  | .hbm, ⟨3, _⟩ => ⟨S256x64, .f32⟩
  | .hbm, ⟨4, _⟩ => ⟨S64, .f32⟩
  | .hbm, ⟨5, _⟩ => ⟨S128x1, .f32⟩
  | .hbm, ⟨6, _⟩ => ⟨S1, .f32⟩
  | .hbm, ⟨7, _⟩ => ⟨S1x64, .f32⟩
  | .hbm, ⟨8, _⟩ => ⟨S64x1, .f32⟩
  | .hbm, ⟨9, _⟩ => ⟨S64x1, .f32⟩
  | .hbm, ⟨10, _⟩ => ⟨S64x2, .f32⟩
  | .hbm, ⟨11, _⟩ => ⟨S100000x66, .f32⟩
  | .hbm, ⟨12, _⟩ => ⟨S100000x64, .f32⟩
  | .hbm, ⟨13, _⟩ => ⟨S100000x1, .f32⟩
  | .hbm, ⟨14, _⟩ => ⟨S100000, .f32⟩
  | .hbm, ⟨15, _⟩ => ⟨S100000x1, .f32⟩
  | .hbm, ⟨16, _⟩ => ⟨S100000, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S1000000, .f32⟩
  | .hbm, ⟨40, _⟩ => ⟨S_, .f32⟩
  | .hbm, ⟨41, _⟩ => ⟨S1000000, .f32⟩
  | .hbm, ⟨42, _⟩ => ⟨S1000000, .f32⟩
  | .hbm, ⟨43, _⟩ => ⟨S_, .f32⟩
  | .hbm, ⟨44, _⟩ => ⟨S_, .f32⟩
  | .hbm, ⟨45, _⟩ => ⟨S1000000, .f32⟩
  | .hbm, ⟨46, _⟩ => ⟨S1000000, .i1⟩
  | .hbm, ⟨47, _⟩ => ⟨S_, .f32⟩
  | .hbm, ⟨48, _⟩ => ⟨S1000000, .f32⟩
  | .hbm, ⟨49, _⟩ => ⟨S1000000, .f32⟩
  | .hbm, ⟨50, _⟩ => ⟨S1000000, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S1000000, .f32⟩
  | .hbm, ⟨57, _⟩ => ⟨S1000000, .f32⟩
  | .hbm, ⟨58, _⟩ => ⟨S1000000, .f32⟩
  | .hbm, ⟨59, _⟩ => ⟨S_, .f32⟩
  | .hbm, ⟨60, _⟩ => ⟨S_, .f32⟩
  | .hbm, ⟨61, _⟩ => ⟨S1, .f32⟩
  | .hbm, ⟨62, _⟩ => ⟨S1000000, .f32⟩
  | .hbm, ⟨63, _⟩ => ⟨S1000000, .f32⟩
  | .hbm, ⟨64, _⟩ => ⟨S1000000, .f32⟩
  | .hbm, ⟨65, _⟩ => ⟨S1000000x1, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x64, .f32⟩
  | .hbm, ⟨75, _⟩ => ⟨S1000000x64, .f32⟩
  | .hbm, ⟨76, _⟩ => ⟨S1000000x64, .f32⟩
  | .hbm, ⟨77, _⟩ => ⟨S_, .f32⟩
  | .hbm, ⟨78, _⟩ => ⟨S100000x64, .f32⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S64x2, .f32⟩
  | .local _ .vmem, ⟨5, _⟩ => ⟨S5000x66, .f32⟩
  | .local _ .vmem, ⟨6, _⟩ => ⟨S5000x66, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x66 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  slices_S128x1_S64x1_0_0 : S128x1.Slices ![0, 0] S64x1
  slices_S128x1_S64x1_64_0 : S128x1.Slices ![64, 0] S64x1
  concatenates_S64x1_S64x1_S64x2_d1 : Shape.Concatenates [S64x1, S64x1] S64x2 1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  concatenates_S5000x64_S5000x2_S5000x66_d1 : Shape.Concatenates [S5000x64, S5000x2] S5000x66 1
  inb_S5000x66_S5000x66_0_0 : ∀ a, (![0, 0] : Fin 2 → Nat) a + S5000x66.size a ≤ S5000x66.size a
  h_S5000x66 : 0 < S5000x66.numel
  slices_S100000x66_S100000x64_0_0 : S100000x66.Slices ![0, 0] S100000x64
  slices_S100000x66_S100000x1_0_64 : S100000x66.Slices ![0, 64] S100000x1
  shapeCasts_S100000x1_S100000 : S100000x1.ShapeCasts S100000
  slices_S100000x66_S100000x1_0_65 : S100000x66.Slices ![0, 65] S100000x1
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1_S_ : S1.ShapeCasts S_
  reducesTo_S1000000_S_d0 : S1000000.ReducesTo [0] S_
  h_S_ : 0 < S_.numel
  bcast_S_S1 : S_.BroadcastsInDim S1 (![] : Fin 0 → Fin S1.rank)
  bcast_S1_S1000000_0 : S1.BroadcastsInDim S1000000 (![0] : Fin 1 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  dot_S5000x256_S256x64_S5000x64_1_0_0_1_n_n_wf : DotDims.WF S5000x256 S256x64 S5000x64 [1] [0] [0] [1] [] []
  dot_S5000x64_S64x2_S5000x2_1_0_0_1_n_n_wf : DotDims.WF S5000x64 S64x2 S5000x2 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2.size a ≤ S64x2.size a
  hwx0_3 : ∀ i : grid0.Coords, EltTy.bits .f32 = 32 ∨ (Rect.block (s := S64x2) S64x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x66.size a ≤ S100000x66.size a
  hwx0_4 : ∀ i : grid0.Coords, EltTy.bits .f32 = 32 ∨ (Rect.block (s := S100000x66) S5000x66.size (cc0_transform_4 i) (hinb0_4 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S5000x66.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1000000 : Shape := ⟨2, ![2, 1000000]⟩
abbrev S1000000 : Shape := ⟨1, ![1000000]⟩
abbrev S256x64 : Shape := ⟨2, ![256, 64]⟩
abbrev S64 : Shape := ⟨1, ![64]⟩
abbrev S128x1 : Shape := ⟨2, ![128, 1]⟩
abbrev S1 : Shape := ⟨1, ![1]⟩
abbrev S100000x64 : Shape := ⟨2, ![100000, 64]⟩
abbrev S1x64 : Shape := ⟨2, ![1, 64]⟩
abbrev S1x1000000 : Shape := ⟨2, ![1, 1000000]⟩
abbrev S64x1 : Shape := ⟨2, ![64, 1]⟩
abbrev S100000x1 : Shape := ⟨2, ![100000, 1]⟩
abbrev S100000 : Shape := ⟨1, ![100000]⟩
abbrev S_ : Shape := ⟨0, ![]⟩
abbrev S1000000x1 : Shape := ⟨2, ![1000000, 1]⟩
abbrev S1000000x64 : Shape := ⟨2, ![1000000, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S1000000, .f32⟩
  | .hbm, ⟨3, _⟩ => ⟨S256x64, .f32⟩
  | .hbm, ⟨4, _⟩ => ⟨S64, .f32⟩
  | .hbm, ⟨5, _⟩ => ⟨S128x1, .f32⟩
  | .hbm, ⟨6, _⟩ => ⟨S1, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S64x1, .f32⟩
  | .hbm, ⟨16, _⟩ => ⟨S100000x1, .f32⟩
  | .hbm, ⟨17, _⟩ => ⟨S100000, .f32⟩
  | .hbm, ⟨18, _⟩ => ⟨S64x1, .f32⟩
  | .hbm, ⟨19, _⟩ => ⟨S100000x1, .f32⟩
  | .hbm, ⟨20, _⟩ => ⟨S100000, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S1000000, .f32⟩
  | .hbm, ⟨40, _⟩ => ⟨S_, .f32⟩
  | .hbm, ⟨41, _⟩ => ⟨S1000000, .f32⟩
  | .hbm, ⟨42, _⟩ => ⟨S1000000, .f32⟩
  | .hbm, ⟨43, _⟩ => ⟨S_, .f32⟩
  | .hbm, ⟨44, _⟩ => ⟨S_, .f32⟩
  | .hbm, ⟨45, _⟩ => ⟨S1000000, .f32⟩
  | .hbm, ⟨46, _⟩ => ⟨S1000000, .i1⟩
  | .hbm, ⟨47, _⟩ => ⟨S_, .f32⟩
  | .hbm, ⟨48, _⟩ => ⟨S1000000, .f32⟩
  | .hbm, ⟨49, _⟩ => ⟨S1000000, .f32⟩
  | .hbm, ⟨50, _⟩ => ⟨S1000000, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S1000000, .f32⟩
  | .hbm, ⟨57, _⟩ => ⟨S1000000, .f32⟩
  | .hbm, ⟨58, _⟩ => ⟨S1000000, .f32⟩
  | .hbm, ⟨59, _⟩ => ⟨S_, .f32⟩
  | .hbm, ⟨60, _⟩ => ⟨S_, .f32⟩
  | .hbm, ⟨61, _⟩ => ⟨S1, .f32⟩
  | .hbm, ⟨62, _⟩ => ⟨S1000000, .f32⟩
  | .hbm, ⟨63, _⟩ => ⟨S1000000, .f32⟩
  | .hbm, ⟨64, _⟩ => ⟨S1000000, .f32⟩
  | .hbm, ⟨65, _⟩ => ⟨S1000000x1, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x64, .f32⟩
  | .hbm, ⟨75, _⟩ => ⟨S1000000x64, .f32⟩
  | .hbm, ⟨76, _⟩ => ⟨S1000000x64, .f32⟩
  | .hbm, ⟨77, _⟩ => ⟨S_, .f32⟩
  | .hbm, ⟨78, _⟩ => ⟨S100000x64, .f32⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S128x1_S64x1_0_0 : S128x1.Slices ![0, 0] S64x1
  shapeCasts_S100000x1_S100000 : S100000x1.ShapeCasts S100000
  slices_S128x1_S64x1_64_0 : S128x1.Slices ![64, 0] S64x1
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1_S_ : S1.ShapeCasts S_
  reducesTo_S1000000_S_d0 : S1000000.ReducesTo [0] S_
  h_S_ : 0 < S_.numel
  bcast_S_S1 : S_.BroadcastsInDim S1 (![] : Fin 0 → Fin S1.rank)
  bcast_S1_S1000000_0 : S1.BroadcastsInDim S1000000 (![0] : Fin 1 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  dot_S100000x64_S64x1_S100000x1_1_0_0_1_n_n_wf : DotDims.WF S100000x64 S64x1 S100000x1 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KFrame.lean ====
/- The frame of `Kernel`'s @main: the one region between the host lines before it and the four stretches of
   host lines after it. The arrays the region finds are the launch memory after the lines before it; each input
   window's staging buffer holds its block of its array at every grid point; the body overwrites the whole output
   buffer with one value computed from the four input blocks; the lines after the region write neither an argument
   nor an array of the pipeline. Hence every weakly fair execution terminates with the seven argument arrays as
   launched. -/
import proofs.«161817_j71579924955533_1_alg».proof.Proof.Gen.Kernel.Launch
import proofs.«161817_j71579924955533_1_alg».proof.Proof.Gen.Kernel.Skeleton
import proofs.«161817_j71579924955533_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- membership in a rectangle of 5000 rows is decided by a structural recursion over the long axis
set_option maxRecDepth 65536

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-! ## What the lines after the region write

Each line writes its one result buffer. Per stretch, the list of those buffers; a reference outside the list is
written by no line of the stretch. -/

/-- The references `hostOps1`'s lines write. -/
abbrev hostOps1_W : List (Ref sig .tc) := [main_v5, main_v6, main_v7, main_v8, main_v9, main_v10, main_v11, main_v12, main_v13, main_c, main_v14, main_v15, main_c_0, main_v16, main_v17, main_v18, main_v19, main_v20, main_c_1, main_v21, main_v22, main_c_2, main_v23, main_v24, main_v25, main_v26, main_v27, main_v28, main_v29, main_v30, main_v31, main_cst]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_1`'s lines write. -/
abbrev hostOps1_1_W : List (Ref sig .tc) := [main_call0_cst, main_call0_v0, main_call0_v1, main_call0_v2, main_call0_v3, main_call0_v4, main_v32]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_2`'s lines write. -/
abbrev hostOps1_2_W : List (Ref sig .tc) := [main_cst_3, main_v33, main_cst_4, main_v34, main_v35, main_v36, main_v37, main_v38, main_cst_5, main_v39, main_v40, main_v41, main_v42, main_v43, main_v44, main_c_6, main_v45, main_v46, main_c_7, main_v47, main_v48, main_v49, main_v50, main_v51, main_v52, main_v53, main_cst_8, main_v54, main_c_9, main_v55, main_v56, main_c_10, main_v57, main_v58, main_v59, main_v60, main_v61, main_v62]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_3`'s lines write. -/
abbrev hostOps1_3_W : List (Ref sig .tc) := [main_call1_cst, main_call1_v0, main_v63]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A reference outside a list holding everything a stretch writes is written by no line of the stretch. -/
theorem not_writes_of {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- A reference outside all four lists is written by no line after the region. -/
theorem tail_keeps (r : Ref sig .tc) (h1 : r ∉ hostOps1_W) (h2 : r ∉ hostOps1_1_W) (h3 : r ∉ hostOps1_2_W) (h4 : r ∉ hostOps1_3_W) :
    ∀ ops ∈ ([hostOps1, hostOps1_1, hostOps1_2, hostOps1_3] : List (List (HloOp τ sig (Elt F)))), ∀ op ∈ ops, Proc.devRef (τ := τ) .tc r ∉ op.writes := by
  intro ops hops op hop
  simp only [List.mem_cons, List.mem_nil_iff, or_false] at hops
  rcases hops with rfl | rfl | rfl | rfl
  · exact not_writes_of hostOps1_writes h1 op hop
  · exact not_writes_of hostOps1_1_writes h2 op hop
  · exact not_writes_of hostOps1_2_writes h3 op hop
  · exact not_writes_of hostOps1_3_writes h4 op hop

/-- The same over the four stretches as one line. -/
theorem tail_keeps_flat (r : Ref sig .tc) (h1 : r ∉ hostOps1_W) (h2 : r ∉ hostOps1_1_W) (h3 : r ∉ hostOps1_2_W) (h4 : r ∉ hostOps1_3_W) :
    ∀ op ∈ List.flatten ([hostOps1, hostOps1_1, hostOps1_2, hostOps1_3] : List (List (HloOp τ sig (Elt F)))), Proc.devRef (τ := τ) .tc r ∉ op.writes := fun op hop => by
  obtain ⟨ops, hops, hop'⟩ := List.mem_flatten.mp hop
  exact tail_keeps r h1 h2 h3 h4 ops hops op hop'

set_option maxHeartbeats 4000000 in
/-- @main is the lines before the region, the region, and the four stretches after it: it reduces to the region
    continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] [hostOps1, hostOps1_1, hostOps1_2, hostOps1_3] (by simp only [List.Forall]; exact hostOps0_sub)
    (by simp only [List.Forall]; exact hostOps0_fresh) main_chain

/-- The lines after the region touch the pipeline's arrays and the bypassing buffers only. -/
theorem sfx_sub : ∀ ops ∈ ([hostOps1, hostOps1_1, hostOps1_2, hostOps1_3] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
/-- And write no array of the pipeline: none of the five arrays is in any stretch's list. -/
theorem sfx_keeps : ∀ ops ∈ ([hostOps1, hostOps1_1, hostOps1_2, hostOps1_3] : List (List (HloOp τ sig (Elt F)))), ∀ op ∈ ops,
    ∀ w, Proc.devRef .tc (Pipeline.arrRef spec0 w) ∉ op.writes := fun ops hops op hop w =>
  tail_keeps (Pipeline.arrRef spec0 w)
    ((by decide : ∀ w, Pipeline.arrRef spec0 w ∉ hostOps1_W) w) ((by decide : ∀ w, Pipeline.arrRef spec0 w ∉ hostOps1_1_W) w)
    ((by decide : ∀ w, Pipeline.arrRef spec0 w ∉ hostOps1_2_W) w) ((by decide : ∀ w, Pipeline.arrRef spec0 w ∉ hostOps1_3_W) w) ops hops op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg1 = m ((c : Thread nD τ).loc main_arg1) := by
  unfold Pipeline.afterTail₀
  rw [StableHlo.after_of_forall_not_mem (b := Proc.devRef .tc main_arg1) _ _
      (tail_keeps_flat main_arg1 (by decide) (by decide) (by decide) (by decide)),
    Pipeline.withArrays_of_ne _ c (V0 m c) _ main_arg1 (by exact (by decide : ∀ w, Pipeline.arrRef spec0 w ≠ main_arg1))]
  exact V_main_arg1 m c
/-- No host line after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg2 = m ((c : Thread nD τ).loc main_arg2) := by
  unfold Pipeline.afterTail₀
  rw [StableHlo.after_of_forall_not_mem (b := Proc.devRef .tc main_arg2) _ _
      (tail_keeps_flat main_arg2 (by decide) (by decide) (by decide) (by decide)),
    Pipeline.withArrays_of_ne _ c (V0 m c) _ main_arg2 (by exact (by decide : ∀ w, Pipeline.arrRef spec0 w ≠ main_arg2))]
  exact V_main_arg2 m c
/-- No host line after the region writes `main_arg4`, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg4 = m ((c : Thread nD τ).loc main_arg4) := by
  unfold Pipeline.afterTail₀
  rw [StableHlo.after_of_forall_not_mem (b := Proc.devRef .tc main_arg4) _ _
      (tail_keeps_flat main_arg4 (by decide) (by decide) (by decide) (by decide)),
    Pipeline.withArrays_of_ne _ c (V0 m c) _ main_arg4 (by exact (by decide : ∀ w, Pipeline.arrRef spec0 w ≠ main_arg4))]
  exact V_main_arg4 m c
/-- No host line after the region writes `main_arg5`, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg5 = m ((c : Thread nD τ).loc main_arg5) := by
  unfold Pipeline.afterTail₀
  rw [StableHlo.after_of_forall_not_mem (b := Proc.devRef .tc main_arg5) _ _
      (tail_keeps_flat main_arg5 (by decide) (by decide) (by decide) (by decide)),
    Pipeline.withArrays_of_ne _ c (V0 m c) _ main_arg5 (by exact (by decide : ∀ w, Pipeline.arrRef spec0 w ≠ main_arg5))]
  exact V_main_arg5 m c
/-- No host line after the region writes `main_arg6`, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg6 = m ((c : Thread nD τ).loc main_arg6) := by
  unfold Pipeline.afterTail₀
  rw [StableHlo.after_of_forall_not_mem (b := Proc.devRef .tc main_arg6) _ _
      (tail_keeps_flat main_arg6 (by decide) (by decide) (by decide) (by decide)),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data whose array is the region-entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched
    window's block index has not moved), for any proof data whose array is the region-entry contents and whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (an unfetched
    window's block index has not moved), for any proof data whose array is the region-entry contents and whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (an unfetched
    window's block index has not moved), for any proof data whose array is the region-entry contents and whose body
    leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run: `main_arg0` and `main_arg3` are arrays of input windows, which end at their region-entry
    contents; the other five arguments bypass the region and are written by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The body's accesses: each buffer whole -/

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S1x64 := Rect.unit (s := S1x64) ![0, 0] S1x64.size inb_S1x64_S1x64_0_0
abbrev r0_3 : Rect S64x2 := Rect.unit (s := S64x2) ![0, 0] S64x2.size inb_S64x2_S64x2_0_0
abbrev r0_4 : Rect S5000x66 := Rect.unit (s := S5000x66) ![0, 0] S5000x66.size inb_S5000x66_S5000x66_0_0

/-! ## What the body leaves in the output window's buffer -/

/-- The output buffer after the body, from the four input blocks: its one store, of the whole buffer. -/
def out0_4 (x0 : Vec F S5000x256 .f32) (x1 : Vec F S256x64 .f32) (x2 : Vec F S1x64 .f32) (x3 : Vec F S64x2 .f32) : Vec F S5000x66 .f32 :=
  View.canon [⟨r0_4, k0_pay1 (View.ld x0 r0_0) (View.ld x1 r0_1) (View.ld x2 r0_2) (View.ld x3 r0_3)⟩]

/-- The offsets of every access are zero. -/
theorem zeros2 : (![0, 0] : Fin 2 → Nat) = fun _ => 0 := funext fun a => by fin_cases a <;> rfl

/-- The store is through the whole buffer's rectangle, so it covers the buffer. -/
theorem cover0_4 (p0 : Vec F S5000x66 .f32) (y : S5000x66.Idx) :
    ∃ pc ∈ ([⟨r0_4, p0⟩] : List (View.Piece (Elt F) S5000x66 .f32)), y ∈ pc.1.set :=
  ⟨_, List.mem_singleton_self _, View.mem_set_unit_zero (S := S5000x66) zeros2 inb_S5000x66_S5000x66_0_0 y⟩

/-- Every access being through a buffer's whole rectangle, the output buffer after the body is the stored value at
    the input blocks themselves. -/
theorem out0_4_eq (x0 : Vec F S5000x256 .f32) (x1 : Vec F S256x64 .f32) (x2 : Vec F S1x64 .f32) (x3 : Vec F S64x2 .f32) :
    out0_4 x0 x1 x2 x3 = k0_pay1 x0 x1 x2 x3 := by
  unfold out0_4
  rw [View.canon_unit_zero (S := S5000x66) zeros2 inb_S5000x66_S5000x66_0_0,
    View.ld_unit_zero (S := S5000x256) zeros2 inb_S5000x256_S5000x256_0_0,
    View.ld_unit_zero (S := S256x64) zeros2 inb_S256x64_S256x64_0_0,
    View.ld_unit_zero (S := S1x64) zeros2 inb_S1x64_S1x64_0_0,
    View.ld_unit_zero (S := S64x2) zeros2 inb_S64x2_S64x2_0_0]

/-! ## The body's triple -/

set_option maxHeartbeats 1000000 in
/-- The body on whole staging buffers, the inputs' at contents `xW` and the output's at anything, leaves the inputs'
    as they were and the output's at `out0_4` of the inputs': four loads, a load of the output buffer whose value is
    not used, and one store of the whole output buffer. -/
theorem sound_kernel (c : Dev nD) (E : Set ℕ) (i : grid0.Coords) (arg1 : Memref sig .tc .vmem S5000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S5000x66 .f32) (harg5 : arg5.IsWhole)
    (x0 : Vec F S5000x256 .f32) (x1 : Vec F S256x64 .f32) (x2 : Vec F S1x64 .f32) (x3 : Vec F S64x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t`
    each input's buffer at its block and the output's at `out0_4` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents (the definition projected, the fold over the host prefix
    never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option maxHeartbeats 4000000 in
set_option backward.isDefEq.respectTransparency.types false in
/-- For any values, from any memory with zero counters: every weakly fair execution of @main on the TensorCores
    terminates, and every final state has every array of the pipeline at what the proof data computes and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := sfx_sub) (hfresh := sfx_fresh) (hkeep := sfx_keeps)
    (hmain := hmain m Variants.none) (hA := A_eq m) (hΦ := fun _ _ => rfl)

/-- The frame: every weakly fair execution of @main terminates with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.HFrame

end
-- ==== Proof.KIFrame.lean ====
/- The frame of `KernelIdeal`'s @main: the one region between the host lines before it and the four stretches of
   host lines after it. The arrays the region finds are the launch memory after the lines before it; each input
   window's staging buffer holds its block of its array at every grid point; the body overwrites the whole output
   buffer with one value computed from the four input blocks; the lines after the region write neither an argument
   nor an array of the pipeline. Hence every weakly fair execution terminates with the seven argument arrays as
   launched. -/
import proofs.«161817_j71579924955533_1_alg».proof.Proof.Gen.KernelIdeal.Launch
import proofs.«161817_j71579924955533_1_alg».proof.Proof.Gen.KernelIdeal.Skeleton
import proofs.«161817_j71579924955533_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- membership in a rectangle of 5000 rows is decided by a structural recursion over the long axis
set_option maxRecDepth 65536

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-! ## What the lines after the region write

Each line writes its one result buffer. Per stretch, the list of those buffers; a reference outside the list is
written by no line of the stretch. -/

/-- The references `hostOps1`'s lines write. -/
abbrev hostOps1_W : List (Ref sig .tc) := [main_v5, main_v6, main_v7, main_v8, main_v9, main_v10, main_v11, main_v12, main_v13, main_c, main_v14, main_v15, main_c_0, main_v16, main_v17, main_v18, main_v19, main_v20, main_c_1, main_v21, main_v22, main_c_2, main_v23, main_v24, main_v25, main_v26, main_v27, main_v28, main_v29, main_v30, main_v31, main_cst]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_1`'s lines write. -/
abbrev hostOps1_1_W : List (Ref sig .tc) := [main_call0_cst, main_call0_v0, main_call0_v1, main_call0_v2, main_call0_v3, main_call0_v4, main_v32]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_2`'s lines write. -/
abbrev hostOps1_2_W : List (Ref sig .tc) := [main_cst_3, main_v33, main_cst_4, main_v34, main_v35, main_v36, main_v37, main_v38, main_cst_5, main_v39, main_v40, main_v41, main_v42, main_v43, main_v44, main_c_6, main_v45, main_v46, main_c_7, main_v47, main_v48, main_v49, main_v50, main_v51, main_v52, main_v53, main_cst_8, main_v54, main_c_9, main_v55, main_v56, main_c_10, main_v57, main_v58, main_v59, main_v60, main_v61, main_v62]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1_3`'s lines write. -/
abbrev hostOps1_3_W : List (Ref sig .tc) := [main_call1_cst, main_call1_v0, main_v63]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A reference outside a list holding everything a stretch writes is written by no line of the stretch. -/
theorem not_writes_of {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- A reference outside all four lists is written by no line after the region. -/
theorem tail_keeps (r : Ref sig .tc) (h1 : r ∉ hostOps1_W) (h2 : r ∉ hostOps1_1_W) (h3 : r ∉ hostOps1_2_W) (h4 : r ∉ hostOps1_3_W) :
    ∀ ops ∈ ([hostOps1, hostOps1_1, hostOps1_2, hostOps1_3] : List (List (HloOp τ sig (Elt F)))), ∀ op ∈ ops, Proc.devRef (τ := τ) .tc r ∉ op.writes := by
  intro ops hops op hop
  simp only [List.mem_cons, List.mem_nil_iff, or_false] at hops
  rcases hops with rfl | rfl | rfl | rfl
  · exact not_writes_of hostOps1_writes h1 op hop
  · exact not_writes_of hostOps1_1_writes h2 op hop
  · exact not_writes_of hostOps1_2_writes h3 op hop
  · exact not_writes_of hostOps1_3_writes h4 op hop

/-- The same over the four stretches as one line. -/
theorem tail_keeps_flat (r : Ref sig .tc) (h1 : r ∉ hostOps1_W) (h2 : r ∉ hostOps1_1_W) (h3 : r ∉ hostOps1_2_W) (h4 : r ∉ hostOps1_3_W) :
    ∀ op ∈ List.flatten ([hostOps1, hostOps1_1, hostOps1_2, hostOps1_3] : List (List (HloOp τ sig (Elt F)))), Proc.devRef (τ := τ) .tc r ∉ op.writes := fun op hop => by
  obtain ⟨ops, hops, hop'⟩ := List.mem_flatten.mp hop
  exact tail_keeps r h1 h2 h3 h4 ops hops op hop'

set_option maxHeartbeats 4000000 in
/-- @main is the lines before the region, the region, and the four stretches after it: it reduces to the region
    continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] [hostOps1, hostOps1_1, hostOps1_2, hostOps1_3] (by simp only [List.Forall]; exact hostOps0_sub)
    (by simp only [List.Forall]; exact hostOps0_fresh) main_chain

/-- The lines after the region touch the pipeline's arrays and the bypassing buffers only. -/
theorem sfx_sub : ∀ ops ∈ ([hostOps1, hostOps1_1, hostOps1_2, hostOps1_3] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
/-- And write no array of the pipeline: none of the five arrays is in any stretch's list. -/
theorem sfx_keeps : ∀ ops ∈ ([hostOps1, hostOps1_1, hostOps1_2, hostOps1_3] : List (List (HloOp τ sig (Elt F)))), ∀ op ∈ ops,
    ∀ w, Proc.devRef .tc (Pipeline.arrRef spec0 w) ∉ op.writes := fun ops hops op hop w =>
  tail_keeps (Pipeline.arrRef spec0 w)
    ((by decide : ∀ w, Pipeline.arrRef spec0 w ∉ hostOps1_W) w) ((by decide : ∀ w, Pipeline.arrRef spec0 w ∉ hostOps1_1_W) w)
    ((by decide : ∀ w, Pipeline.arrRef spec0 w ∉ hostOps1_2_W) w) ((by decide : ∀ w, Pipeline.arrRef spec0 w ∉ hostOps1_3_W) w) ops hops op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg1 = m ((c : Thread nD τ).loc main_arg1) := by
  unfold Pipeline.afterTail₀
  rw [StableHlo.after_of_forall_not_mem (b := Proc.devRef .tc main_arg1) _ _
      (tail_keeps_flat main_arg1 (by decide) (by decide) (by decide) (by decide)),
    Pipeline.withArrays_of_ne _ c (V0 m c) _ main_arg1 (by exact (by decide : ∀ w, Pipeline.arrRef spec0 w ≠ main_arg1))]
  exact V_main_arg1 m c
/-- No host line after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg2 = m ((c : Thread nD τ).loc main_arg2) := by
  unfold Pipeline.afterTail₀
  rw [StableHlo.after_of_forall_not_mem (b := Proc.devRef .tc main_arg2) _ _
      (tail_keeps_flat main_arg2 (by decide) (by decide) (by decide) (by decide)),
    Pipeline.withArrays_of_ne _ c (V0 m c) _ main_arg2 (by exact (by decide : ∀ w, Pipeline.arrRef spec0 w ≠ main_arg2))]
  exact V_main_arg2 m c
/-- No host line after the region writes `main_arg4`, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg4 = m ((c : Thread nD τ).loc main_arg4) := by
  unfold Pipeline.afterTail₀
  rw [StableHlo.after_of_forall_not_mem (b := Proc.devRef .tc main_arg4) _ _
      (tail_keeps_flat main_arg4 (by decide) (by decide) (by decide) (by decide)),
    Pipeline.withArrays_of_ne _ c (V0 m c) _ main_arg4 (by exact (by decide : ∀ w, Pipeline.arrRef spec0 w ≠ main_arg4))]
  exact V_main_arg4 m c
/-- No host line after the region writes `main_arg5`, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg5 = m ((c : Thread nD τ).loc main_arg5) := by
  unfold Pipeline.afterTail₀
  rw [StableHlo.after_of_forall_not_mem (b := Proc.devRef .tc main_arg5) _ _
      (tail_keeps_flat main_arg5 (by decide) (by decide) (by decide) (by decide)),
    Pipeline.withArrays_of_ne _ c (V0 m c) _ main_arg5 (by exact (by decide : ∀ w, Pipeline.arrRef spec0 w ≠ main_arg5))]
  exact V_main_arg5 m c
/-- No host line after the region writes `main_arg6`, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg6 = m ((c : Thread nD τ).loc main_arg6) := by
  unfold Pipeline.afterTail₀
  rw [StableHlo.after_of_forall_not_mem (b := Proc.devRef .tc main_arg6) _ _
      (tail_keeps_flat main_arg6 (by decide) (by decide) (by decide) (by decide)),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data whose array is the region-entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched
    window's block index has not moved), for any proof data whose array is the region-entry contents and whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (an unfetched
    window's block index has not moved), for any proof data whose array is the region-entry contents and whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (an unfetched
    window's block index has not moved), for any proof data whose array is the region-entry contents and whose body
    leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run: `main_arg0` and `main_arg3` are arrays of input windows, which end at their region-entry
    contents; the other five arguments bypass the region and are written by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The body's accesses: each buffer whole -/

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S1x64 := Rect.unit (s := S1x64) ![0, 0] S1x64.size inb_S1x64_S1x64_0_0
abbrev r0_3 : Rect S64x2 := Rect.unit (s := S64x2) ![0, 0] S64x2.size inb_S64x2_S64x2_0_0
abbrev r0_4 : Rect S5000x66 := Rect.unit (s := S5000x66) ![0, 0] S5000x66.size inb_S5000x66_S5000x66_0_0

/-! ## What the body leaves in the output window's buffer -/

/-- The output buffer after the body, from the four input blocks: its one store, of the whole buffer. -/
def out0_4 (x0 : Vec F S5000x256 .f32) (x1 : Vec F S256x64 .f32) (x2 : Vec F S1x64 .f32) (x3 : Vec F S64x2 .f32) : Vec F S5000x66 .f32 :=
  View.canon [⟨r0_4, k0_pay1 (View.ld x0 r0_0) (View.ld x1 r0_1) (View.ld x2 r0_2) (View.ld x3 r0_3)⟩]

/-- The offsets of every access are zero. -/
theorem zeros2 : (![0, 0] : Fin 2 → Nat) = fun _ => 0 := funext fun a => by fin_cases a <;> rfl

/-- The store is through the whole buffer's rectangle, so it covers the buffer. -/
theorem cover0_4 (p0 : Vec F S5000x66 .f32) (y : S5000x66.Idx) :
    ∃ pc ∈ ([⟨r0_4, p0⟩] : List (View.Piece (Elt F) S5000x66 .f32)), y ∈ pc.1.set :=
  ⟨_, List.mem_singleton_self _, View.mem_set_unit_zero (S := S5000x66) zeros2 inb_S5000x66_S5000x66_0_0 y⟩

/-- Every access being through a buffer's whole rectangle, the output buffer after the body is the stored value at
    the input blocks themselves. -/
theorem out0_4_eq (x0 : Vec F S5000x256 .f32) (x1 : Vec F S256x64 .f32) (x2 : Vec F S1x64 .f32) (x3 : Vec F S64x2 .f32) :
    out0_4 x0 x1 x2 x3 = k0_pay1 x0 x1 x2 x3 := by
  unfold out0_4
  rw [View.canon_unit_zero (S := S5000x66) zeros2 inb_S5000x66_S5000x66_0_0,
    View.ld_unit_zero (S := S5000x256) zeros2 inb_S5000x256_S5000x256_0_0,
    View.ld_unit_zero (S := S256x64) zeros2 inb_S256x64_S256x64_0_0,
    View.ld_unit_zero (S := S1x64) zeros2 inb_S1x64_S1x64_0_0,
    View.ld_unit_zero (S := S64x2) zeros2 inb_S64x2_S64x2_0_0]

/-! ## The body's triple -/

set_option maxHeartbeats 1000000 in
/-- The body on whole staging buffers, the inputs' at contents `xW` and the output's at anything, leaves the inputs'
    as they were and the output's at `out0_4` of the inputs': four loads, a load of the output buffer whose value is
    not used, and one store of the whole output buffer. -/
theorem sound_kernel (c : Dev nD) (E : Set ℕ) (i : grid0.Coords) (arg1 : Memref sig .tc .vmem S5000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S5000x66 .f32) (harg5 : arg5.IsWhole)
    (x0 : Vec F S5000x256 .f32) (x1 : Vec F S256x64 .f32) (x2 : Vec F S1x64 .f32) (x3 : Vec F S64x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t`
    each input's buffer at its block and the output's at `out0_4` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents (the definition projected, the fold over the host prefix
    never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option maxHeartbeats 4000000 in
set_option backward.isDefEq.respectTransparency.types false in
/-- For any values, from any memory with zero counters: every weakly fair execution of @main on the TensorCores
    terminates, and every final state has every array of the pipeline at what the proof data computes and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := sfx_sub) (hfresh := sfx_fresh) (hkeep := sfx_keeps)
    (hmain := hmain m Variants.none) (hA := A_eq m) (hΦ := fun _ _ => rfl)

/-- The frame: every weakly fair execution of @main terminates with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.HFrame

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibConcatCols.lean ====
/-
  Two matrices with the same number of rows laid side by side along the columns, read at an index.

  The concatenation of an R x A array and an R x B array along axis 1 is an R x C array with C = A + B. Entry (r, k)
  is the first array's entry (r, k) when k < A and the second's entry (r, k - A) otherwise. This is what
  jnp.concatenate([x, y], axis=-1) holds, for any element type, on a block of rows as on the whole arrays; two such
  rows agree entry by entry when their halves do.
-/
import Idealize.ShloMosaic.Lib.Pipeline.Value
import Idealize.ShloMosaic.Lib.ValueIdx

namespace Idealize.ShloMosaic.ConcatCols

open Idealize.ShloMosaic Idealize.ShloMosaic.ValueIdx

variable {α : Type} {R R' A B C : Nat}

/-- Entry k of row r of an R x A array and an R x B array laid side by side. -/
def catRow (hC : C = A + B) (x : (⟨2, ![R, A]⟩ : Shape).Idx → α) (y : (⟨2, ![R, B]⟩ : Shape).Idx → α)
    (r : Fin R) (k : Fin C) : α :=
  if h : k.val < A then x (ix2 r ⟨k.val, h⟩) else y (ix2 r ⟨k.val - A, by have := k.isLt; omega⟩)

/-- The concatenation along axis 1, read at (r, k). -/
theorem concat_cols_apply (hC : C = A + B) (x : (⟨2, ![R, A]⟩ : Shape).Idx → α) (y : (⟨2, ![R, B]⟩ : Shape).Idx → α)
    (h : Shape.Concatenates [(⟨2, ![R, A]⟩ : Shape), (⟨2, ![R, B]⟩ : Shape)] (⟨2, ![R, C]⟩ : Shape) 1)
    (r : Fin R) (k : Fin C) :
    concatenate (⟨2, ![R, C]⟩ : Shape) 1 [⟨(⟨2, ![R, A]⟩ : Shape), x⟩, ⟨(⟨2, ![R, B]⟩ : Shape), y⟩] h (ix2 r k)
      = catRow hC x y r k := by
  unfold catRow
  split
  · rename_i hk
    exact concatenate_pair_apply_left (1 : Fin 2) x y h (ix2 r k) rfl (ix2 r ⟨k.val, hk⟩)
      (fun b => match b with | ⟨0, _⟩ => rfl | ⟨1, _⟩ => rfl)
  · rename_i hk
    exact concatenate_pair_apply_right (1 : Fin 2) x y h (ix2 r k) rfl rfl (ix2 r ⟨k.val - A, by have := k.isLt; omega⟩)
      (fun b hb => match b, hb with
        | ⟨0, _⟩, _ => rfl
        | ⟨1, _⟩, hb => absurd rfl hb)
      (by show (k.val - A) + A = k.val; omega)

/-- Two side-by-side rows agree at every entry when their left halves agree and their right halves agree. -/
theorem catRow_congr (hC : C = A + B)
    {x : (⟨2, ![R, A]⟩ : Shape).Idx → α} {y : (⟨2, ![R, B]⟩ : Shape).Idx → α}
    {x' : (⟨2, ![R', A]⟩ : Shape).Idx → α} {y' : (⟨2, ![R', B]⟩ : Shape).Idx → α} {r : Fin R} {r' : Fin R'}
    (hx : ∀ k : Fin A, x (ix2 r k) = x' (ix2 r' k)) (hy : ∀ k : Fin B, y (ix2 r k) = y' (ix2 r' k)) (k : Fin C) :
    catRow hC x y r k = catRow hC x' y' r' k := by
  unfold catRow
  split
  · exact hx _
  · exact hy _

end Idealize.ShloMosaic.ConcatCols
-- ==== Proof.KernelBlock.lean ====
/-
  One grid point's block of the fused array, entry by entry, at the ideal instance.

  The body computes, from a 5000-row block x0 of the node features, the weights x1, the bias row x2 and the 64 by 2
  attention matrix x3: the dense rows  hblk = x0 @ x1 + x2  (the roundings to bf16 on the way into the two matrix
  products are identities on the extended reals), the two scores  ablk = hblk @ x3, and stores them side by side.
  So entry (p, q) of what it stores is  (sum over k of x0(p,k) * x1(k,q)) + x2(0,q)  for q < 64 and
  sum over c of hblk(p,c) * x3(c, q - 64)  for q = 64, 65.
-/
import proofs.«161817_j71579924955533_1_alg».proof.Proof.Gen.KernelIdeal.Skeleton
import proofs.«161817_j71579924955533_1_alg».proof.Proof.LibMatmulRows
import proofs.«161817_j71579924955533_1_alg».proof.Proof.LibConcatCols
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Facts₀ Idealize.ShloMosaic Idealize.ShloMosaic.ValueIdx

/-- The dense rows of the block, as the body computes them. -/
def hblk (x0 : FVec Ideal S5000x256 .f32) (x1 : FVec Ideal S256x64 .f32) (x2 : FVec Ideal S1x64 .f32) : FVec Ideal S5000x64 .f32 :=
  addf (matmul dot_S5000x256_S256x64_S5000x64_1_0_0_1_n_n none (truncf .bf16 x0 bitsLt_bf16_f32) (truncf .bf16 x1 bitsLt_bf16_f32)
      (constant (F := Ideal) S5000x64 .f32 0x00000000#32))
    (broadcastTo S5000x64 (shapeCast S1x64 x2 shapeCasts_S1x64_S1x64) broadcasts_S1x64_S5000x64)

/-- The two attention scores of each row of the block, as the body computes them. -/
def ablk (x0 : FVec Ideal S5000x256 .f32) (x1 : FVec Ideal S256x64 .f32) (x2 : FVec Ideal S1x64 .f32) (x3 : FVec Ideal S64x2 .f32) :
    FVec Ideal S5000x2 .f32 :=
  matmul dot_S5000x64_S64x2_S5000x2_1_0_0_1_n_n none (truncf .bf16 (hblk x0 x1 x2) bitsLt_bf16_f32)
    (truncf .bf16 (shapeCast S64x2 x3 shapeCasts_S64x2_S64x2) bitsLt_bf16_f32) (constant (F := Ideal) S5000x2 .f32 0x00000000#32)

/-- What the body stores is the two laid side by side. -/
theorem pay_eq (x0 : FVec Ideal S5000x256 .f32) (x1 : FVec Ideal S256x64 .f32) (x2 : FVec Ideal S1x64 .f32) (x3 : FVec Ideal S64x2 .f32) :
    Gen.k0_pay1 (F := Ideal) x0 x1 x2 x3
      = concatenate S5000x66 1 [⟨S5000x64, hblk x0 x1 x2⟩, ⟨S5000x2, ablk x0 x1 x2 x3⟩] concatenates_S5000x64_S5000x2_S5000x66_d1 := rfl

/-- Entry (p, j) of the dense rows: the row of x0 against the column of x1, plus the bias. -/
def blin (x0 : FVec Ideal S5000x256 .f32) (x1 : FVec Ideal S256x64 .f32) (x2 : FVec Ideal S1x64 .f32) (p : Fin 5000) (j : Fin 64) : EReal :=
  (∑ k : Fin 256, x0 (ix2 p k) * x1 (ix2 k j)) + x2 (ix2 (0 : Fin 1) j)

/-- Entry (p, e) of the scores: the dense row against column e of x3. -/
def batt (x0 : FVec Ideal S5000x256 .f32) (x1 : FVec Ideal S256x64 .f32) (x2 : FVec Ideal S1x64 .f32) (x3 : FVec Ideal S64x2 .f32)
    (p : Fin 5000) (e : Fin 2) : EReal :=
  ∑ c : Fin 64, blin x0 x1 x2 p c * x3 (ix2 c e)

theorem hblk_apply (x0 : FVec Ideal S5000x256 .f32) (x1 : FVec Ideal S256x64 .f32) (x2 : FVec Ideal S1x64 .f32) (p : Fin 5000) (j : Fin 64) :
    hblk x0 x1 x2 (ix2 p j) = blin x0 x1 x2 p j := by
  unfold hblk blin
  rw [addf_apply]
  refine congrArg₂ (· + ·) ?_ ?_
  · exact MatmulRows.matmul_zero_apply dot_S5000x256_S256x64_S5000x64_1_0_0_1_n_n none rfl rfl rfl rfl (fun _ _ => rfl) (fun _ _ => rfl)
      (truncf .bf16 x0 bitsLt_bf16_f32) (truncf .bf16 x1 bitsLt_bf16_f32) (ix2 p j)
  · rw [broadcastTo_1b_ab_apply, shapeCast_self]

theorem ablk_apply (x0 : FVec Ideal S5000x256 .f32) (x1 : FVec Ideal S256x64 .f32) (x2 : FVec Ideal S1x64 .f32) (x3 : FVec Ideal S64x2 .f32)
    (p : Fin 5000) (e : Fin 2) : ablk x0 x1 x2 x3 (ix2 p e) = batt x0 x1 x2 x3 p e := by
  unfold ablk batt
  refine (MatmulRows.matmul_zero_rows dot_S5000x64_S64x2_S5000x2_1_0_0_1_n_n none rfl rfl rfl rfl (fun _ _ => rfl) (fun _ _ => rfl)
      (truncf .bf16 (hblk x0 x1 x2) bitsLt_bf16_f32) (truncf .bf16 (shapeCast S64x2 x3 shapeCasts_S64x2_S64x2) bitsLt_bf16_f32) (ix2 p e)
      (fun c => blin x0 x1 x2 p c) (fun c => x3 (ix2 c e)) (fun c => ?_) (fun c => ?_))
  · exact hblk_apply x0 x1 x2 p c
  · show shapeCast S64x2 x3 shapeCasts_S64x2_S64x2 (ix2 c e) = x3 (ix2 c e)
    rw [shapeCast_self]

/-- Entry (p, q) of what the body stores. -/
theorem pay_apply (x0 : FVec Ideal S5000x256 .f32) (x1 : FVec Ideal S256x64 .f32) (x2 : FVec Ideal S1x64 .f32) (x3 : FVec Ideal S64x2 .f32)
    (p : Fin 5000) (q : Fin 66) :
    Gen.k0_pay1 (F := Ideal) x0 x1 x2 x3 (ix2 p q)
      = if h : q.val < 64 then blin x0 x1 x2 p ⟨q.val, h⟩ else batt x0 x1 x2 x3 p ⟨q.val - 64, by have := q.isLt; omega⟩ := by
  rw [pay_eq]
  refine (ConcatCols.concat_cols_apply (A := 64) (B := 2) rfl (hblk x0 x1 x2) (ablk x0 x1 x2 x3) concatenates_S5000x64_S5000x2_S5000x66_d1 p q).trans ?_
  unfold ConcatCols.catRow
  split
  · exact hblk_apply x0 x1 x2 p _
  · exact ablk_apply x0 x1 x2 x3 p _

end Cert.KernelIdeal.Block

end
-- ==== Proof.Spec.lean ====
/-
  The layer's dense part, as functions on the extended reals.

  For node features x (100000 by 256), weights w (256 by 64), bias b (64) and attention weights wa (128 by 1):
  the projected feature  lin x w b r j = (sum over k of x(r,k) * w(k,j)) + b(j),  and the two attention scores of a
  node,  att x w b wa o r = sum over c of lin x w b r c * wa(o + c, 0)  with o = 0 for the source half of wa and
  o = 64 for the destination half. The fused 100000 by 66 array holds lin in its first 64 columns and the two
  scores in columns 64 and 65.
-/
import Idealize.ShloMosaic.PureOps.Ideal.Laws
import Idealize.ShloMosaic.Lib.ValueIdx

noncomputable section

namespace Cert.Spec

open Idealize.ShloMosaic Idealize.ShloMosaic.ValueIdx

/-- Entry (r, j) of x @ w + b. -/
def lin (x : (⟨2, ![100000, 256]⟩ : Shape).Idx → EReal) (w : (⟨2, ![256, 64]⟩ : Shape).Idx → EReal)
    (b : (⟨1, ![64]⟩ : Shape).Idx → EReal) (r : Fin 100000) (j : Fin 64) : EReal :=
  (∑ k : Fin 256, x (ix2 r k) * w (ix2 k j)) + b (ix1 j)

/-- The attention score of node r against the 64 rows of wa starting at row o. -/
def att (x : (⟨2, ![100000, 256]⟩ : Shape).Idx → EReal) (w : (⟨2, ![256, 64]⟩ : Shape).Idx → EReal)
    (b : (⟨1, ![64]⟩ : Shape).Idx → EReal) (wa : (⟨2, ![128, 1]⟩ : Shape).Idx → EReal)
    (o : Nat) (ho : o + 64 ≤ 128) (r : Fin 100000) : EReal :=
  ∑ c : Fin 64, lin x w b r c * wa (ix2 (⟨o + c.val, by have := c.isLt; omega⟩ : Fin 128) (0 : Fin 1))

/-- The two attention columns side by side: column 0 the source score, column 1 the destination score. -/
def att2 (x : (⟨2, ![100000, 256]⟩ : Shape).Idx → EReal) (w : (⟨2, ![256, 64]⟩ : Shape).Idx → EReal)
    (b : (⟨1, ![64]⟩ : Shape).Idx → EReal) (wa : (⟨2, ![128, 1]⟩ : Shape).Idx → EReal)
    (r : Fin 100000) (e : Fin 2) : EReal :=
  if e.val = 0 then att x w b wa 0 (by omega) r else att x w b wa 64 (by omega) r

/-- The fused array: 64 columns of lin, then the two scores. -/
def fused (x : (⟨2, ![100000, 256]⟩ : Shape).Idx → EReal) (w : (⟨2, ![256, 64]⟩ : Shape).Idx → EReal)
    (b : (⟨1, ![64]⟩ : Shape).Idx → EReal) (wa : (⟨2, ![128, 1]⟩ : Shape).Idx → EReal)
    (i : (⟨2, ![100000, 66]⟩ : Shape).Idx) : EReal :=
  if h : (i 1).val < 64 then lin x w b (i 0) ⟨(i 1).val, h⟩
  else att2 x w b wa (i 0) ⟨(i 1).val - 64, by have := (i 1).isLt; simp at this; omega⟩

/-- The fused array in one of its first 64 columns. -/
theorem fused_lin (x : (⟨2, ![100000, 256]⟩ : Shape).Idx → EReal) (w : (⟨2, ![256, 64]⟩ : Shape).Idx → EReal)
    (b : (⟨1, ![64]⟩ : Shape).Idx → EReal) (wa : (⟨2, ![128, 1]⟩ : Shape).Idx → EReal)
    (r : Fin 100000) (k : Fin 66) (j : Fin 64) (hk : k.val = j.val) : fused x w b wa (ix2 r k) = lin x w b r j := by
  unfold fused
  have h : ((ix2 r k : (⟨2, ![100000, 66]⟩ : Shape).Idx) 1).val < 64 := by show k.val < 64; have := j.isLt; omega
  rw [dif_pos h]
  exact congrArg (lin x w b r) (Fin.ext hk)

/-- The fused array in one of its two score columns. -/
theorem fused_att (x : (⟨2, ![100000, 256]⟩ : Shape).Idx → EReal) (w : (⟨2, ![256, 64]⟩ : Shape).Idx → EReal)
    (b : (⟨1, ![64]⟩ : Shape).Idx → EReal) (wa : (⟨2, ![128, 1]⟩ : Shape).Idx → EReal)
    (r : Fin 100000) (k : Fin 66) (e : Fin 2) (hk : k.val = 64 + e.val) : fused x w b wa (ix2 r k) = att2 x w b wa r e := by
  unfold fused
  have h : ¬ ((ix2 r k : (⟨2, ![100000, 66]⟩ : Shape).Idx) 1).val < 64 := by show ¬ k.val < 64; omega
  rw [dif_neg h]
  exact congrArg (att2 x w b wa r) (Fin.ext (by show k.val - 64 = e.val; omega))

end Cert.Spec

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KernelBlockSpec.lean ====
/-
  One block of the fused array against the specification.

  Before the region the host makes the bias a 1 by 64 row and lays the two halves of the 128 by 1 attention weights
  side by side as a 64 by 2 matrix: column 0 is rows 0..63, column 1 is rows 64..127. A block whose feature rows are
  rows R = 5000 t + p of x then holds, at (p, q), the specification's fused entry (R, q).
-/
import proofs.«161817_j71579924955533_1_alg».proof.Proof.KernelBlock
import proofs.«161817_j71579924955533_1_alg».proof.Proof.Spec
import proofs.«161817_j71579924955533_1_alg».proof.Proof.LibVectorAsMatrix
import proofs.«161817_j71579924955533_1_alg».proof.Proof.LibConcatCols
import Idealize.ShloMosaic.Lib.ValueLayout

noncomputable section

namespace Cert.KernelIdeal.Block

open Cert.KernelIdeal Cert.KernelIdeal.Facts₀ Idealize.ShloMosaic Idealize.ShloMosaic.ValueIdx

/-- The bias as a 1 by 64 row. -/
def biasRow (a4 : FVec Ideal S64 .f32) : FVec Ideal S1x64 .f32 := shapeCast S1x64 a4 shapeCasts_S64_S1x64

/-- The attention weights as a 64 by 2 matrix. -/
def attMat (a5 : FVec Ideal S128x1 .f32) : FVec Ideal S64x2 .f32 :=
  concatenate S64x2 1 [⟨S64x1, extractStridedSlice S64x1 ![0, 0] a5 slices_S128x1_S64x1_0_0⟩,
    ⟨S64x1, extractStridedSlice S64x1 ![64, 0] a5 slices_S128x1_S64x1_64_0⟩] concatenates_S64x1_S64x1_S64x2_d1

theorem biasRow_apply (a4 : FVec Ideal S64 .f32) (j : Fin 64) : biasRow a4 (ix2 (0 : Fin 1) j) = a4 (ix1 j) :=
  VectorAsMatrix.row_apply a4 shapeCasts_S64_S1x64 (0 : Fin 1) j

theorem attMat_apply (a5 : FVec Ideal S128x1 .f32) (c : Fin 64) (e : Fin 2) :
    attMat a5 (ix2 c e) = if e.val = 0 then a5 (ix2 (⟨0 + c.val, by have := c.isLt; omega⟩ : Fin 128) (0 : Fin 1))
      else a5 (ix2 (⟨64 + c.val, by have := c.isLt; omega⟩ : Fin 128) (0 : Fin 1)) := by
  unfold attMat
  refine (ConcatCols.concat_cols_apply (A := 1) (B := 1) rfl _ _ concatenates_S64x1_S64x1_S64x2_d1 c e).trans ?_
  unfold ConcatCols.catRow
  have he : e.val < 2 := e.isLt
  split
  · rename_i h
    rw [if_pos (by omega)]
    refine (slice2_axis0_eq 0 a5 slices_S128x1_S64x1_0_0 c _).trans ?_
    exact congrArg (fun z : Fin 1 => a5 (ix2 (⟨0 + c.val, by have := c.isLt; omega⟩ : Fin 128) z)) (Subsingleton.elim _ _)
  · rename_i h
    rw [if_neg (by omega)]
    refine (slice2_axis0_eq 64 a5 slices_S128x1_S64x1_64_0 c _).trans ?_
    exact congrArg (fun z : Fin 1 => a5 (ix2 (⟨64 + c.val, by have := c.isLt; omega⟩ : Fin 128) z)) (Subsingleton.elim _ _)

variable (a0 : (⟨2, ![100000, 256]⟩ : Shape).Idx → EReal) (a3 : FVec Ideal S256x64 .f32) (a4 : FVec Ideal S64 .f32)
  (a5 : FVec Ideal S128x1 .f32)

/-- A dense entry of the block is the specification's at the block's row. -/
theorem blin_eq (x0 : FVec Ideal S5000x256 .f32) (R : Fin 100000) (p : Fin 5000) (h0 : ∀ k : Fin 256, x0 (ix2 p k) = a0 (ix2 R k))
    (j : Fin 64) : blin x0 a3 (biasRow a4) p j = Spec.lin a0 a3 a4 R j := by
  unfold blin Spec.lin
  rw [biasRow_apply]
  exact congrArg (· + a4 (ix1 j)) (Finset.sum_congr rfl fun k _ => by rw [h0 k])

/-- A score entry of the block is the specification's at the block's row. -/
theorem batt_eq (x0 : FVec Ideal S5000x256 .f32) (R : Fin 100000) (p : Fin 5000) (h0 : ∀ k : Fin 256, x0 (ix2 p k) = a0 (ix2 R k))
    (e : Fin 2) : batt x0 a3 (biasRow a4) (attMat a5) p e = Spec.att2 a0 a3 a4 a5 R e := by
  unfold batt Spec.att2 Spec.att
  by_cases he : e.val = 0
  · rw [if_pos he]
    refine Finset.sum_congr rfl fun c _ => ?_
    rw [blin_eq a0 a3 a4 x0 R p h0 c, attMat_apply, if_pos he]
  · rw [if_neg he]
    refine Finset.sum_congr rfl fun c _ => ?_
    rw [blin_eq a0 a3 a4 x0 R p h0 c, attMat_apply, if_neg he]

/-- Entry (p, q) of what the body stores at a point whose feature rows are rows R of x is the fused entry (R, q). -/
theorem pay_fused (x0 : FVec Ideal S5000x256 .f32) (R : Fin 100000) (p : Fin 5000) (h0 : ∀ k : Fin 256, x0 (ix2 p k) = a0 (ix2 R k))
    (q : Fin 66) : Gen.k0_pay1 (F := Ideal) x0 a3 (biasRow a4) (attMat a5) (ix2 p q) = Spec.fused a0 a3 a4 a5 (ix2 R q) := by
  rw [pay_apply]
  unfold Spec.fused
  by_cases h : q.val < 64
  · rw [dif_pos h, dif_pos (show ((ix2 R q : (⟨2, ![100000, 66]⟩ : Shape).Idx) 1).val < 64 from h)]
    exact blin_eq a0 a3 a4 x0 R p h0 _
  · rw [dif_neg h, dif_neg (show ¬ ((ix2 R q : (⟨2, ![100000, 66]⟩ : Shape).Idx) 1).val < 64 from h)]
    exact batt_eq a0 a3 a4 a5 x0 R p h0 _

end Cert.KernelIdeal.Block

end
-- ==== Proof.Tail.lean ====
/-
  Everything the layer does after the dense part, as ONE function of the projected features h (100000 by 64), the
  per-node source and destination scores asrc, adst (100000 each), the edge list ei (2 by 1000000), the edge weights
  ew and the attention bias batt:

    row, col   = the two rows of ei, a negative index wrapped by adding 100000;
    s          = asrc[row] + adst[col] + batt;   s = leaky_relu(s) with slope 0.01 (the literal 0x3C23D70A);
    p          = exp(s - max s) / sum exp(s - max s)   (one softmax over all edges);   p = p * ew;
    agg        = the scatter-add over row of  p[:, None] * h[col]  into zeros;
    result     = max(h + agg, 0).

  Both programs apply exactly these operations; a proof about them never needs to open this function.
-/
import proofs.«161817_j71579924955533_1_alg».proof.Proof.Gen.ReferenceIdeal
import Idealize.ShloMosaic.PureOps.Ideal

noncomputable section

namespace Cert.Tail

open Cert.ReferenceIdeal Cert.ReferenceIdeal.Facts₀ Idealize.ShloMosaic

/-- One row of the edge list as a vector of node indices. -/
def edgeRow (ei : IVec S2x1000000 32) (k : Nat) (h : S2x1000000.Slices ![k, 0] S1x1000000) : IVec S1000000 32 :=
  shapeCast S1000000 (extractStridedSlice S1x1000000 ![k, 0] ei h) shapeCasts_S1x1000000_S1000000

/-- A negative index wrapped around (plus 100000), as a column of start indices. -/
def wrapIdx (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- The raw edge scores asrc[row] + adst[col] + batt. -/
def rawScore (asrc adst : FVec Ideal S100000 .f32) (ei : IVec S2x1000000 32) (batt : FVec Ideal S1 .f32) : FVec Ideal S1000000 .f32 :=
  addf
    (addf (Host.gather gather_S100000_S1000000x1_S1000000_n_0_n_n_0_1_1 asrc (wrapIdx (edgeRow ei 0 slices_S2x1000000_S1x1000000_0_0)))
      (Host.gather gather_S100000_S1000000x1_S1000000_n_0_n_n_0_1_1 adst (wrapIdx (edgeRow ei 1 slices_S2x1000000_S1x1000000_1_0))))
    (broadcastInDim S1000000 ![] bcast_S_S1000000 (shapeCast S_ batt shapeCasts_S1_S_))

/-- leaky_relu with slope 0.01. -/
def leaky (s : FVec Ideal S1000000 .f32) : FVec Ideal S1000000 .f32 :=
  select (cmpf .oge s (broadcastInDim S1000000 ![] bcast_S_S1000000 (constant (F := Ideal) S_ .f32 0x00000000#32))) s
    (mulf (broadcastInDim S1000000 ![] bcast_S_S1000000 (constant (F := Ideal) S_ .f32 0x3C23D70A#32)) s)

/-- One softmax over all edges. -/
def softmaxAll (s : FVec Ideal S1000000 .f32) : FVec Ideal S1000000 .f32 :=
  let e : FVec Ideal S1000000 .f32 :=
    Host.exp (subf s (broadcastInDim S1000000 ![0] bcast_S1_S1000000_0 (broadcastInDim S1 ![] bcast_S_S1
      (maximumf (constant (F := Ideal) S_ .f32 0xFF800000#32)
        (Host.reduce FloatOps.maximumf s (constant (F := Ideal) S_ .f32 0xFF800000#32) reducesTo_S1000000_S_d0 h_S_)))))
  Host.divf e (broadcastInDim S1000000 ![0] bcast_S1_S1000000_0 (broadcastInDim S1 ![] bcast_S_S1
    (Host.reduceAdd e (constant (F := Ideal) S_ .f32 0x00000000#32) reducesTo_S1000000_S_d0 h_S_)))

/-- The whole tail. -/
def tail (h : FVec Ideal S100000x64 .f32) (asrc adst : FVec Ideal S100000 .f32) (ei : IVec S2x1000000 32)
    (ew : FVec Ideal S1000000 .f32) (batt : FVec Ideal S1 .f32) : FVec Ideal S100000x64 .f32 :=
  let p : FVec Ideal S1000000 .f32 := mulf (softmaxAll (leaky (rawScore asrc adst ei batt))) ew
  let msgs : FVec Ideal S1000000x64 .f32 :=
    mulf (broadcastInDim S1000000x64 ![0, 1] bcast_S1000000x1_S1000000x64_0_1 (broadcastInDim S1000000x1 ![0] bcast_S1000000_S1000000x1_0 p))
      (Host.gather gather_S100000x64_S1000000x1_S1000000x64_1_0_n_n_0_1_164 h (wrapIdx (edgeRow ei 1 slices_S2x1000000_S1x1000000_1_0)))
  let agg : FVec Ideal S100000x64 .f32 :=
    Host.scatterAdd scatter_S100000x64_S1000000x1_S1000000x64_1_0_0_1
      (broadcastInDim S100000x64 ![] bcast_S_S100000x64 (constant (F := Ideal) S_ .f32 0x00000000#32))
      (wrapIdx (edgeRow ei 0 slices_S2x1000000_S1x1000000_0_0)) msgs
  maximumf (addf h agg) (broadcastInDim S100000x64 ![] bcast_S_S100000x64 (constant (F := Ideal) S_ .f32 0x00000000#32))

end Cert.Tail

end
-- ==== Proof.KernelTail.lean ====
/-
  The kernel program's host operations after the region, read as one function of what they find.

  After the region the program slices the fused array into the projected features (columns 0..63) and the two score
  columns (64 and 65, each reshaped to a vector), and from there applies the layer's edge part. Over ANY contents W of
  the buffers, the last buffer they write holds the tail function of those three pieces and of the edge list, the
  edge weights and the attention bias as W has them.
-/
import proofs.«161817_j71579924955533_1_alg».proof.Proof.Gen.KernelIdeal.Launch
import proofs.«161817_j71579924955533_1_alg».proof.Proof.Tail
import Idealize.ShloMosaic.Lib.StableHlo.Run
import Idealize.ShloMosaic.PureOps.Ideal

set_option maxRecDepth 16384

noncomputable section

namespace Cert.KernelIdeal.TailRead

open Cert.KernelIdeal Idealize.ShloMosaic Idealize.ShloMosaic.TcCoe Idealize.SL.Sem Idealize.ShloMosaic.StableHlo

/-- The three pieces of the fused array the suffix reads. -/
def featCols (v : FVec Ideal S100000x66 .f32) : FVec Ideal S100000x64 .f32 :=
  extractStridedSlice S100000x64 ![0, 0] v Facts₀.slices_S100000x66_S100000x64_0_0
def srcCol (v : FVec Ideal S100000x66 .f32) : FVec Ideal S100000 .f32 :=
  shapeCast S100000 (extractStridedSlice S100000x1 ![0, 64] v Facts₀.slices_S100000x66_S100000x1_0_64) Facts₀.shapeCasts_S100000x1_S100000
def dstCol (v : FVec Ideal S100000x66 .f32) : FVec Ideal S100000 .f32 :=
  shapeCast S100000 (extractStridedSlice S100000x1 ![0, 65] v Facts₀.slices_S100000x66_S100000x1_0_65) Facts₀.shapeCasts_S100000x1_S100000

set_option maxHeartbeats 4000000 in
theorem suffix_eq (W : Valuation τ sig (Elt Ideal)) :
    StableHlo.after (List.flatten [Gen.hostOps1 (F := Ideal), Gen.hostOps1_1, Gen.hostOps1_2, Gen.hostOps1_3]) W (Proc.devRef .tc main_v63)
      = Cert.Tail.tail (featCols (W (Proc.devRef .tc main_v4))) (srcCol (W (Proc.devRef .tc main_v4))) (dstCol (W (Proc.devRef .tc main_v4)))
          (W (Proc.devRef .tc main_arg1)) (W (Proc.devRef .tc main_arg2)) (W (Proc.devRef .tc main_arg6)) := by
  simp only [Gen.hostOps1, Gen.hostOps1_1, Gen.hostOps1_2, Gen.hostOps1_3, List.flatten_cons, List.flatten_nil, List.append_nil,
    List.cons_append, List.nil_append]
  after_results_simp
  rfl

end Cert.KernelIdeal.TailRead

end
-- ==== Proof.KernelValue.lean ====
/-
  What the kernel program computes, at the ideal instance.

  The four input windows: point t's block of the node features is rows 5000 t .. 5000 t + 4999 of x; the weights,
  the bias row and the 64 by 2 attention matrix are whole arrays, the same block at every point. The output window's
  block at point t is rows 5000 t .. 5000 t + 4999 of the fused array, and the twenty blocks tile it. So after the
  region the fused array is the specification's, and the host operations after it return the tail function of its
  three column pieces.
-/
import proofs.«161817_j71579924955533_1_alg».proof.Proof.KIFrame
import proofs.«161817_j71579924955533_1_alg».proof.Proof.KernelBlockSpec
import proofs.«161817_j71579924955533_1_alg».proof.Proof.KernelTail
import proofs.«161817_j71579924955533_1_alg».proof.Proof.Spec
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.HFrame
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The fused array the specification assigns to this launch's argument arrays. -/
abbrev fusedOf (c : Dev nD) : FVec Ideal S100000x66 .f32 :=
  Spec.fused (m ((c : Thread nD τ).loc main_arg0)) (m ((c : Thread nD τ).loc main_arg3)) (m ((c : Thread nD τ).loc main_arg4))
    (m ((c : Thread nD τ).loc main_arg5))

/-! ## What the host operations before the region leave -/

theorem V_v0 (c : Dev nD) : (V m c main_v0 : FVec Ideal S1x64 .f32) = Block.biasRow (m ((c : Thread nD τ).loc main_arg4)) := by
  show StableHlo.after hostOps0 (fun b => m (c, b)) (Proc.devRef .tc main_v0) = _
  after_results
  rfl

theorem V_v3 (c : Dev nD) : (V m c main_v3 : FVec Ideal S64x2 .f32) = Block.attMat (m ((c : Thread nD τ).loc main_arg5)) := by
  show StableHlo.after hostOps0 (fun b => m (c, b)) (Proc.devRef .tc main_v3) = _
  after_results
  rfl

/-! ## The index maps, decided over the grid -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks -/

theorem iblk0_apply (c : Dev nD) (t : Fin cfg0.N) (p : Fin 5000) (k : Fin 256) (R : Fin 100000) (hR : R.val = t.val * 5000 + p.val) :
    iblk m c 0 t (ix2 p k) = m ((c : Thread nD τ).loc main_arg0) (ix2 R k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 5000 + 1 * p.val = R.val; omega
  | ⟨1, _⟩ => show win0_0.index t (1 : Fin 2) * 256 + 1 * k.val = k.val; omega

theorem iblk1_eq (c : Dev nD) (t : Fin cfg0.N) : iblk m c 1 t = m ((c : Thread nD τ).loc main_arg3) := by
  obtain ⟨-, -, e0, e1, -⟩ := idx_facts t
  funext y
  show V m c main_arg3 (((cfg0.win 1).blk t).view.emb y) = _
  rw [V_main_arg3]
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 64 + 1 * (y 1).val = (y 1).val; omega

theorem iblk2_eq (c : Dev nD) (t : Fin cfg0.N) : iblk m c 2 t = Block.biasRow (m ((c : Thread nD τ).loc main_arg4)) := by
  obtain ⟨-, -, -, -, e0, e1, -⟩ := idx_facts t
  rw [← V_v0]
  funext y
  show V m c main_v0 (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem iblk3_eq (c : Dev nD) (t : Fin cfg0.N) : iblk m c 3 t = Block.attMat (m ((c : Thread nD τ).loc main_arg5)) := by
  obtain ⟨-, -, -, -, -, -, e0, e1, -⟩ := idx_facts t
  rw [← V_v3]
  funext y
  show V m c main_v3 (((cfg0.win 3).blk t).view.emb y) = _
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 2 + 1 * (y 1).val = (y 1).val; omega

/-! ## What a point writes back, and the whole array -/

/-- Point t writes back block t of the specification's fused array. -/
theorem flushed_eq (c : Dev nD) (t : Fin cfg0.N) :
    (dats m 0 c).flushed 4 t = ((cfg0.win 4).blk t).view.read (Elt Ideal) (fusedOf m c) := by
  show (cfg0.win 4).cut (grid0.coords t) ((dats m 0 c).after 4 t) = _
  rw [after0_4, out0_4_eq, iblk1_eq, iblk2_eq, iblk3_eq]
  obtain ⟨-, -, -, -, -, -, -, -, e0, e1⟩ := idx_facts t
  have htN : t.val < 20 := t.isLt
  funext y
  obtain ⟨p, q, rfl⟩ : ∃ (p : Fin 5000) (q : Fin 66), y = ix2 p q := ⟨y 0, y 1, eq_ix2 y⟩
  have hp : p.val < 5000 := p.isLt
  refine (Block.pay_fused (m ((c : Thread nD τ).loc main_arg0)) (m ((c : Thread nD τ).loc main_arg3)) (m ((c : Thread nD τ).loc main_arg4))
    (m ((c : Thread nD τ).loc main_arg5)) (iblk m c 0 t) ⟨t.val * 5000 + p.val, by omega⟩ p
    (fun k => iblk0_apply m c t p k _ rfl) q).trans ?_
  show fusedOf m c _ = fusedOf m c (((cfg0.win 4).blk t).view.emb (ix2 p q))
  refine congrArg _ (funext fun a => Fin.ext ?_)
  match a with
  | ⟨0, _⟩ => show t.val * 5000 + p.val = win0_4.index t (0 : Fin 2) * 5000 + 1 * p.val; omega
  | ⟨1, _⟩ => show q.val = win0_4.index t (1 : Fin 2) * 66 + 1 * q.val; omega

/-- An index of the array is in point t's block iff each coordinate is in the block's range on its axis. -/
theorem mem_blk (t : Fin cfg0.N) (i : S100000x66.Idx) :
    i ∈ ((cfg0.win 4).blk t).view.set ↔ ∀ a : Fin 2, win0_4.index t a * S5000x66.size a ≤ (i a).val ∧ (i a).val < win0_4.index t a * S5000x66.size a + S5000x66.size a := by
  show i ∈ ((View.whole main_v4).slice (win0_4.rect t)).set ↔ _
  rw [View.set_slice_whole, Rect.mem_set_unit]
  exact Iff.rfl

/-- The twenty blocks tile the array: row r is in the block of point r / 5000. -/
theorem cover (i : S100000x66.Idx) : ∃ t : Fin cfg0.N, (cfg0.win 4).flush t = true ∧ i ∈ ((cfg0.win 4).blk t).view.set := by
  have hi0 : (i 0).val < 100000 := (i 0).isLt
  have hi1 : (i 1).val < 66 := (i 1).isLt
  refine ⟨⟨(i 0).val / 5000, by show (i 0).val / 5000 < 20; omega⟩, flush0_4 _, ?_⟩
  rw [mem_blk]
  obtain ⟨-, -, -, -, -, -, -, -, e0, e1⟩ := idx_facts ⟨(i 0).val / 5000, by show (i 0).val / 5000 < 20; omega⟩
  intro a
  match a with
  | ⟨0, _⟩ => show win0_4.index _ (0 : Fin 2) * 5000 ≤ (i 0).val ∧ (i 0).val < win0_4.index _ (0 : Fin 2) * 5000 + 5000; rw [e0]; show (i 0).val / 5000 * 5000 ≤ (i 0).val ∧ (i 0).val < (i 0).val / 5000 * 5000 + 5000; omega
  | ⟨1, _⟩ => show win0_4.index _ (1 : Fin 2) * 66 ≤ (i 1).val ∧ (i 1).val < win0_4.index _ (1 : Fin 2) * 66 + 66; rw [e1]; omega

/-- After the region the output array is the specification's fused array. -/
theorem final (c : Dev nD) : (dats m 0 c).arrAt 4 cfg0.N = fusedOf m c :=
  (dats m 0 c).arrAt_eq_of_cover 4 (fusedOf m c) (fun t _ => flushed_eq m c t) (cover)

/-! ## The result -/

/-- The tail function of the fused array's three column pieces and of the edge arguments. -/
abbrev resultOf (c : Dev nD) : FVec Ideal S100000x64 .f32 :=
  Cert.Tail.tail (TailRead.featCols (fusedOf m c)) (TailRead.srcCol (fusedOf m c)) (TailRead.dstCol (fusedOf m c))
    (m ((c : Thread nD τ).loc main_arg1)) (m ((c : Thread nD τ).loc main_arg2)) (m ((c : Thread nD τ).loc main_arg6))

theorem tail_val (c : Dev nD) :
    Pipeline.afterTail₀ cfgs (dats m) 0 (V0 m) [hostOps1, hostOps1_1, hostOps1_2, hostOps1_3] c main_v63 = resultOf m c := by
  unfold Pipeline.afterTail₀
  rw [TailRead.suffix_eq]
  have e4 : Pipeline.withArrays (cfgs 0).spec c (V0 m c) (fun w => (dats m 0 c).arrAt w (cfgs 0).N) (Proc.devRef .tc main_v4)
      = (dats m 0 c).arrAt 4 cfg0.N := Pipeline.withArrays_arr spec0 launch0.win.arr_inj c _ _ 4
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne spec0 c (V0 m c) _ main_arg1 (by decide)).trans (V_main_arg1 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) _ main_arg2 (by decide)).trans (V_main_arg2 m c)
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne spec0 c (V0 m c) _ main_arg6 (by decide)).trans (V_main_arg6 m c)
  rw [e4, e1, e2, e6, final]

/-- Every run of the kernel program ends with the result buffer at the tail function of the specification's fused
    array, and the arguments as launched: the two argument arrays the region stages end at their entry contents, the
    other five are written by no line. -/
theorem run : θ_run defs (onTc (τ := τ) (main (F := Ideal))) ⟨m, fun _ => 0, ρ⟩ fun r => ∀ c : Dev nD,
      r.2.mem ((c.tc : Thread nD τ).loc main_v63) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v63 (Pipeline.mem_restRefs_of main_v63 (by decide) (by decide))).trans (tail_val m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).1 1).trans (((dats m 0 c).arrAt_in 1 rfl _).trans ((A_eq m c 1).trans (V_main_arg3 m c))),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c)⟩)
    (run_main m ρ)

end Cert.KernelIdeal.Result

end
-- ==== Proof.RefRun.lean ====
/- The reference program's @main as ONE line of host operations — the bodies of the two functions it calls written
   at their call sites, over the buffers those calls name — and its run read back: every weakly fair execution
   terminates, each buffer ends at the fold of the operations' results over the launch contents, and no operation
   writes an argument array, so the seven arguments end unchanged. -/
import proofs.«161817_j71579924955533_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in program order, in five stretches -/

/-- @main's operations 1 … 37: the linear layer, the two attention projections gathered at the edges' endpoints, their sum with the bias, and the slope constant. -/
abbrev opsA : List (HloOp τ sig (Elt F)) :=
  [ StableHlo.binary main_arg0 main_arg3 main_v0 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.unary main_arg1 main_v4 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v4 main_v5 rfl shapeCasts_S1x1000000_S1000000,
    StableHlo.unary main_arg1 main_v6 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v6 main_v7 rfl shapeCasts_S1x1000000_S1000000,
    StableHlo.unary main_arg5 main_v8 ((extractStridedSlice S64x1 ![0, 0] · slices_S128x1_S64x1_0_0) : (⟨S128x1, .f32⟩ : BufTy).Contents (Elt F) → (⟨S64x1, .f32⟩ : BufTy).Contents (Elt F)),
    StableHlo.binary main_v3 main_v8 main_v9 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.reshape main_v9 main_v10 rfl shapeCasts_S100000x1_S100000,
    StableHlo.unary main_arg5 main_v11 ((extractStridedSlice S64x1 ![64, 0] · slices_S128x1_S64x1_64_0) : (⟨S128x1, .f32⟩ : BufTy).Contents (Elt F) → (⟨S64x1, .f32⟩ : BufTy).Contents (Elt F)),
    StableHlo.binary main_v3 main_v11 main_v12 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.reshape main_v12 main_v13 rfl shapeCasts_S100000x1_S100000,
    StableHlo.nullary main_c (constantI S_ 32 0#32),
    StableHlo.unary main_c main_v14 (broadcastInDim S1000000 ![] bcast_S_S1000000 : (⟨S_, .i32⟩ : BufTy).Contents (Elt F) → (⟨S1000000, .i32⟩ : BufTy).Contents (Elt F)),
    StableHlo.binary main_v5 main_v14 main_v15 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v16 (broadcastInDim S1000000 ![] bcast_S_S1000000 : (⟨S_, .i32⟩ : BufTy).Contents (Elt F) → (⟨S1000000, .i32⟩ : BufTy).Contents (Elt F)),
    StableHlo.binary main_v5 main_v16 main_v17 (addi : (⟨S1000000, .i32⟩ : BufTy).Contents (Elt F) → (⟨S1000000, .i32⟩ : BufTy).Contents (Elt F) → (⟨S1000000, .i32⟩ : BufTy).Contents (Elt F)),
    StableHlo.ternary main_v15 main_v17 main_v5 main_v18 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v18 main_v19 (broadcastInDim S1000000x1 ![0] bcast_S1000000_S1000000x1_0 : (⟨S1000000, .i32⟩ : BufTy).Contents (Elt F) → (⟨S1000000x1, .i32⟩ : BufTy).Contents (Elt F)),
    StableHlo.binary main_v10 main_v19 main_v20 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.nullary main_c_1 (constantI S_ 32 0#32),
    StableHlo.unary main_c_1 main_v21 (broadcastInDim S1000000 ![] bcast_S_S1000000 : (⟨S_, .i32⟩ : BufTy).Contents (Elt F) → (⟨S1000000, .i32⟩ : BufTy).Contents (Elt F)),
    StableHlo.binary main_v7 main_v21 main_v22 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v23 (broadcastInDim S1000000 ![] bcast_S_S1000000 : (⟨S_, .i32⟩ : BufTy).Contents (Elt F) → (⟨S1000000, .i32⟩ : BufTy).Contents (Elt F)),
    StableHlo.binary main_v7 main_v23 main_v24 (addi : (⟨S1000000, .i32⟩ : BufTy).Contents (Elt F) → (⟨S1000000, .i32⟩ : BufTy).Contents (Elt F) → (⟨S1000000, .i32⟩ : BufTy).Contents (Elt F)),
    StableHlo.ternary main_v22 main_v24 main_v7 main_v25 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v25 main_v26 (broadcastInDim S1000000x1 ![0] bcast_S1000000_S1000000x1_0 : (⟨S1000000, .i32⟩ : BufTy).Contents (Elt F) → (⟨S1000000x1, .i32⟩ : BufTy).Contents (Elt F)),
    StableHlo.binary main_v13 main_v26 main_v27 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.binary main_v20 main_v27 main_v28 (addf : (⟨S1000000, .f32⟩ : BufTy).Contents (Elt F) → (⟨S1000000, .f32⟩ : BufTy).Contents (Elt F) → (⟨S1000000, .f32⟩ : BufTy).Contents (Elt F)),
    StableHlo.reshape main_arg6 main_v29 rfl shapeCasts_S1_S_,
    StableHlo.unary main_v29 main_v30 (broadcastInDim S1000000 ![] bcast_S_S1000000 : (⟨S_, .f32⟩ : BufTy).Contents (Elt F) → (⟨S1000000, .f32⟩ : BufTy).Contents (Elt F)),
    StableHlo.binary main_v28 main_v30 main_v31 (addf : (⟨S1000000, .f32⟩ : BufTy).Contents (Elt F) → (⟨S1000000, .f32⟩ : BufTy).Contents (Elt F) → (⟨S1000000, .f32⟩ : BufTy).Contents (Elt F)),
    StableHlo.nullary main_cst (constant S_ .f32 0x3C23D70A#32) ]

/-- The seven operations of the leaky rectifier applied to the edge scores: the comparison with zero, the scaled copy, and the selection between the two. -/
abbrev opsB : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1000000, .f32⟩) (broadcastInDim S1000000 ![] bcast_S_S1000000),
    StableHlo.TRef.binary (.of main_v31 : StableHlo.TRef sig ⟨S1000000, .f32⟩) (.of main_call0_v0 : StableHlo.TRef sig ⟨S1000000, .f32⟩) (.of main_call0_v1 : StableHlo.TRef sig ⟨S1000000, .i1⟩) (cmpf .oge),
    StableHlo.TRef.unary (.of main_cst : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S1000000, .f32⟩) (broadcastInDim S1000000 ![] bcast_S_S1000000),
    StableHlo.TRef.binary (.of main_call0_v3 : StableHlo.TRef sig ⟨S1000000, .f32⟩) (.of main_v31 : StableHlo.TRef sig ⟨S1000000, .f32⟩) (.of main_call0_v4 : StableHlo.TRef sig ⟨S1000000, .f32⟩) mulf,
    StableHlo.TRef.ternary (.of main_call0_v1 : StableHlo.TRef sig ⟨S1000000, .i1⟩) (.of main_v31 : StableHlo.TRef sig ⟨S1000000, .f32⟩) (.of main_call0_v4 : StableHlo.TRef sig ⟨S1000000, .f32⟩) (.of main_v32 : StableHlo.TRef sig ⟨S1000000, .f32⟩) select ]

/-- @main's operations after the rectifier, up to the end of its first sixty statements: the softmax over all edges (maximum, shifted exponential, sum, quotient), the edge weights, and the wrapped target indices. -/
abbrev opsC : List (HloOp τ sig (Elt F)) :=
  [ StableHlo.nullary main_cst_3 (constant S_ .f32 0xFF800000#32),
    StableHlo.binary main_v32 main_cst_3 main_v33 ((fun x v => Host.reduce FloatOps.maximumf x v reducesTo_S1000000_S_d0 h_S_) : (⟨S1000000, .f32⟩ : BufTy).Contents (Elt F) → (⟨S_, .f32⟩ : BufTy).Contents (Elt F) → (⟨S_, .f32⟩ : BufTy).Contents (Elt F)),
    StableHlo.nullary main_cst_4 (constant S_ .f32 0xFF800000#32),
    StableHlo.binary main_cst_4 main_v33 main_v34 (maximumf : (⟨S_, .f32⟩ : BufTy).Contents (Elt F) → (⟨S_, .f32⟩ : BufTy).Contents (Elt F) → (⟨S_, .f32⟩ : BufTy).Contents (Elt F)),
    StableHlo.unary main_v34 main_v35 (broadcastInDim S1 ![] bcast_S_S1 : (⟨S_, .f32⟩ : BufTy).Contents (Elt F) → (⟨S1, .f32⟩ : BufTy).Contents (Elt F)),
    StableHlo.unary main_v35 main_v36 (broadcastInDim S1000000 ![0] bcast_S1_S1000000_0 : (⟨S1, .f32⟩ : BufTy).Contents (Elt F) → (⟨S1000000, .f32⟩ : BufTy).Contents (Elt F)),
    StableHlo.binary main_v32 main_v36 main_v37 (subf : (⟨S1000000, .f32⟩ : BufTy).Contents (Elt F) → (⟨S1000000, .f32⟩ : BufTy).Contents (Elt F) → (⟨S1000000, .f32⟩ : BufTy).Contents (Elt F)),
    StableHlo.unary main_v37 main_v38 (Host.exp : (⟨S1000000, .f32⟩ : BufTy).Contents (Elt F) → (⟨S1000000, .f32⟩ : BufTy).Contents (Elt F)),
    StableHlo.nullary main_cst_5 (constant S_ .f32 0x00000000#32),
    StableHlo.binary main_v38 main_cst_5 main_v39 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    StableHlo.unary main_v39 main_v40 (broadcastInDim S1 ![] bcast_S_S1 : (⟨S_, .f32⟩ : BufTy).Contents (Elt F) → (⟨S1, .f32⟩ : BufTy).Contents (Elt F)),
    StableHlo.unary main_v40 main_v41 (broadcastInDim S1000000 ![0] bcast_S1_S1000000_0 : (⟨S1, .f32⟩ : BufTy).Contents (Elt F) → (⟨S1000000, .f32⟩ : BufTy).Contents (Elt F)),
    StableHlo.binary main_v38 main_v41 main_v42 (Host.divf : (⟨S1000000, .f32⟩ : BufTy).Contents (Elt F) → (⟨S1000000, .f32⟩ : BufTy).Contents (Elt F) → (⟨S1000000, .f32⟩ : BufTy).Contents (Elt F)),
    StableHlo.binary main_v42 main_arg2 main_v43 (mulf : (⟨S1000000, .f32⟩ : BufTy).Contents (Elt F) → (⟨S1000000, .f32⟩ : BufTy).Contents (Elt F) → (⟨S1000000, .f32⟩ : BufTy).Contents (Elt F)),
    StableHlo.unary main_v43 main_v44 (broadcastInDim S1000000x1 ![0] bcast_S1000000_S1000000x1_0 : (⟨S1000000, .f32⟩ : BufTy).Contents (Elt F) → (⟨S1000000x1, .f32⟩ : BufTy).Contents (Elt F)),
    StableHlo.nullary main_c_6 (constantI S_ 32 0#32),
    StableHlo.unary main_c_6 main_v45 (broadcastInDim S1000000 ![] bcast_S_S1000000 : (⟨S_, .i32⟩ : BufTy).Contents (Elt F) → (⟨S1000000, .i32⟩ : BufTy).Contents (Elt F)),
    StableHlo.binary main_v7 main_v45 main_v46 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 100000#32),
    StableHlo.unary main_c_7 main_v47 (broadcastInDim S1000000 ![] bcast_S_S1000000 : (⟨S_, .i32⟩ : BufTy).Contents (Elt F) → (⟨S1000000, .i32⟩ : BufTy).Contents (Elt F)),
    StableHlo.binary main_v7 main_v47 main_v48 (addi : (⟨S1000000, .i32⟩ : BufTy).Contents (Elt F) → (⟨S1000000, .i32⟩ : BufTy).Contents (Elt F) → (⟨S1000000, .i32⟩ : BufTy).Contents (Elt F)),
    StableHlo.ternary main_v46 main_v48 main_v7 main_v49 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ]

/-- @main's operations 61 … 76: the gathered rows scaled by the edge weights, scattered with addition onto zeros at the wrapped source indices, and added to the linear layer's output. -/
abbrev opsD : List (HloOp τ sig (Elt F)) :=
  [ StableHlo.unary main_v49 main_v50 (broadcastInDim S1000000x1 ![0] bcast_S1000000_S1000000x1_0 : (⟨S1000000, .i32⟩ : BufTy).Contents (Elt F) → (⟨S1000000x1, .i32⟩ : BufTy).Contents (Elt F)),
    StableHlo.binary main_v3 main_v50 main_v51 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v44 main_v52 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v52 main_v51 main_v53 (mulf : (⟨S1000000x64, .f32⟩ : BufTy).Contents (Elt F) → (⟨S1000000x64, .f32⟩ : BufTy).Contents (Elt F) → (⟨S1000000x64, .f32⟩ : BufTy).Contents (Elt F)),
    StableHlo.nullary main_cst_8 (constant S_ .f32 0x00000000#32),
    StableHlo.unary main_cst_8 main_v54 (broadcastInDim S100000x64 ![] bcast_S_S100000x64 : (⟨S_, .f32⟩ : BufTy).Contents (Elt F) → (⟨S100000x64, .f32⟩ : BufTy).Contents (Elt F)),
    StableHlo.nullary main_c_9 (constantI S_ 32 0#32),
    StableHlo.unary main_c_9 main_v55 (broadcastInDim S1000000 ![] bcast_S_S1000000 : (⟨S_, .i32⟩ : BufTy).Contents (Elt F) → (⟨S1000000, .i32⟩ : BufTy).Contents (Elt F)),
    StableHlo.binary main_v5 main_v55 main_v56 (cmpi .slt : (⟨S1000000, .i32⟩ : BufTy).Contents (Elt F) → (⟨S1000000, .i32⟩ : BufTy).Contents (Elt F) → (⟨S1000000, .i1⟩ : BufTy).Contents (Elt F)),
    StableHlo.nullary main_c_10 (constantI S_ 32 100000#32),
    StableHlo.unary main_c_10 main_v57 (broadcastInDim S1000000 ![] bcast_S_S1000000 : (⟨S_, .i32⟩ : BufTy).Contents (Elt F) → (⟨S1000000, .i32⟩ : BufTy).Contents (Elt F)),
    StableHlo.binary main_v5 main_v57 main_v58 (addi : (⟨S1000000, .i32⟩ : BufTy).Contents (Elt F) → (⟨S1000000, .i32⟩ : BufTy).Contents (Elt F) → (⟨S1000000, .i32⟩ : BufTy).Contents (Elt F)),
    StableHlo.ternary main_v56 main_v58 main_v5 main_v59 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v59 main_v60 (broadcastInDim S1000000x1 ![0] bcast_S1000000_S1000000x1_0 : (⟨S1000000, .i32⟩ : BufTy).Contents (Elt F) → (⟨S1000000x1, .i32⟩ : BufTy).Contents (Elt F)),
    StableHlo.ternary main_v54 main_v60 main_v53 main_v61 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v3 main_v61 main_v62 (addf : (⟨S100000x64, .f32⟩ : BufTy).Contents (Elt F) → (⟨S100000x64, .f32⟩ : BufTy).Contents (Elt F) → (⟨S100000x64, .f32⟩ : BufTy).Contents (Elt F)) ]

/-- The three operations of the rectifier applied to the result: the zero array and the elementwise maximum with it. -/
abbrev opsE : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v62 : StableHlo.TRef sig ⟨S100000x64, .f32⟩) (.of main_call1_v0 : StableHlo.TRef sig ⟨S100000x64, .f32⟩) (.of main_v63 : StableHlo.TRef sig ⟨S100000x64, .f32⟩) maximumf ]

/-- All 85 operations of @main, in program order. -/
abbrev ops : List (HloOp τ sig (Elt F)) := opsA ++ (opsB ++ (opsC ++ (opsD ++ opsE)))

/-! ## @main is that line -/

/-- A line followed by the empty return is the line. -/
theorem seq_bind_pure {n : Nat} {T : Topo} {s : RefSig} {Val : EltTy → Type} {L : Labels} (l : List (HloOp T s Val)) :
    ((seq l : Prog (TpuEff n T s Val L .tc) PUnit) >>= fun _ => pure ⟨⟩) = seq l := by
  have h := seq_append (nD := n) (Λ := L) l []
  rw [List.append_nil] at h
  exact h.symm

/-- The first sixty statements: the first stretch, the leaky rectifier's body, the third stretch (whose last
    operation is the window's last statement, with no return after it). -/
theorem main_part0_chain (c : Dev nD) : main_part0 (F := F) c
    = (Pipeline.chainK [seq opsA, seq opsB] (seq opsC) : Prog (TpuEff nD τ sig (Elt F) (Pipeline.Sig Λ₀ (Fin 0) fun p => (pcfgs (F := F) p).Adm) .tc) PUnit) := by
  chain_rfl

/-- The remaining statements: the fourth stretch, the rectifier's body, the return. -/
theorem main_part1_chain (c : Dev nD) : main_part1 (F := F) c
    = (Pipeline.chain [seq opsD, seq opsE] : Prog (TpuEff nD τ sig (Elt F) (Pipeline.Sig Λ₀ (Fin 0) fun p => (pcfgs (F := F) p).Adm) .tc) PUnit) := by
  chain_rfl

/-- @main is the line of all its operations: its two windows one after the other, each a chain of stretches, and
    stretches in a row are their concatenation run as one (`seq_append`). -/
theorem main_eq (c : Dev nD) : main (F := F) c = seq ops := by
  show (main_part0 (F := F) c >>= fun _ => main_part1 (F := F) c) = _
  rw [main_part1_chain, main_part0_chain, Pipeline.chainK_bind_chain]
  rw [List.cons_append, List.cons_append, List.nil_append,
    Pipeline.chain_cons, Pipeline.chain_cons, Pipeline.chain_cons, Pipeline.chain_cons, Pipeline.chain_cons, Pipeline.chain_nil,
    seq_bind_pure, ← seq_append opsD, ← seq_append opsC, ← seq_append opsB, ← seq_append opsA]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., unary_bufs_sub .., binary_bufs_sub .., reshape_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., unary_bufs_sub .., binary_bufs_sub .., nullary_bufs_sub ..⟩
theorem opsB_sub : (opsB : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem opsC_sub : (opsC : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub ..⟩
theorem opsD_sub : (opsD : List (HloOp τ sig (Elt F))).Forall fun op => op.bufs ⊆ tcRefs τ sig :=
  ⟨unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., binary_bufs_sub ..⟩
theorem opsE_sub : (opsE : List (HloOp τ sig (Elt F))).Forall fun op => op.bufs ⊆ tcRefs τ sig :=
  ⟨nullary_bufs_sub .., unary_bufs_sub .., binary_bufs_sub ..⟩

/-- Every operation touches TensorCore references only. -/
theorem ops_sub : (ops : List (HloOp τ sig (Elt F))).Forall fun op => op.bufs ⊆ tcRefs τ sig :=
  List.forall_append.2 ⟨opsA_sub, List.forall_append.2 ⟨opsB_sub, List.forall_append.2 ⟨opsC_sub, List.forall_append.2 ⟨opsD_sub, opsE_sub⟩⟩⟩⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem opsD_fresh : (opsD : List (HloOp τ sig (Elt F))).Forall fun op => op.fresh = ∅ :=
  ⟨rfl, rfl, rfl, rfl, rfl, rfl, rfl, rfl, rfl, rfl, rfl, rfl, rfl, rfl, rfl, rfl⟩
theorem opsE_fresh : (opsE : List (HloOp τ sig (Elt F))).Forall fun op => op.fresh = ∅ :=
  ⟨rfl, rfl, rfl⟩

/-- Every operation determines its results: none allocates a buffer of contents not chosen. -/
theorem ops_fresh : ∀ op ∈ (ops : List (HloOp τ sig (Elt F))), op.fresh = ∅ :=
  List.forall_iff_forall_mem.1
    (List.forall_append.2 ⟨opsA_fresh, List.forall_append.2 ⟨opsB_fresh, List.forall_append.2 ⟨opsC_fresh, List.forall_append.2 ⟨opsD_fresh, opsE_fresh⟩⟩⟩⟩)

/-! ## The run -/

/-- On every device, for any float values, from any memory with zero counters: every weakly fair execution of
    @main terminates, and every final state has each TensorCore buffer at the fold of the operations' results
    over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments are kept -/

/-- The buffers the operations write: one each, and none of them an argument. -/
abbrev written : List (Ref sig .tc) :=
  [ main_v0, main_v1, main_v2, main_v3, main_v4, main_v5, main_v6, main_v7, main_v8, main_v9, main_v10, main_v11, main_v12, main_v13, main_c, main_v14, main_v15, main_c_0, main_v16, main_v17, main_v18, main_v19, main_v20, main_c_1, main_v21, main_v22, main_c_2, main_v23, main_v24, main_v25, main_v26, main_v27, main_v28, main_v29, main_v30, main_v31, main_cst, main_call0_cst, main_call0_v0, main_call0_v1, main_call0_v2, main_call0_v3, main_call0_v4, main_v32, main_cst_3, main_v33, main_cst_4, main_v34, main_v35, main_v36, main_v37, main_v38, main_cst_5, main_v39, main_v40, main_v41, main_v42, main_v43, main_v44, main_c_6, main_v45, main_v46, main_c_7, main_v47, main_v48, main_v49, main_v50, main_v51, main_v52, main_v53, main_cst_8, main_v54, main_c_9, main_v55, main_v56, main_c_10, main_v57, main_v58, main_v59, main_v60, main_v61, main_v62, main_call1_cst, main_call1_v0, main_v63 ]

/-- An operation that writes the one buffer `y` of a list writes within the list. -/
theorem writes_sub_of {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

theorem opsA_writes : (opsA : List (HloOp τ sig (Elt F))).Forall fun op => op.writes ⊆ (written.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
theorem opsB_writes : (opsB : List (HloOp τ sig (Elt F))).Forall fun op => op.writes ⊆ (written.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩
theorem opsC_writes : (opsC : List (HloOp τ sig (Elt F))).Forall fun op => op.writes ⊆ (written.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
theorem opsD_writes : (opsD : List (HloOp τ sig (Elt F))).Forall fun op => op.writes ⊆ (written.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
theorem opsE_writes : (opsE : List (HloOp τ sig (Elt F))).Forall fun op => op.writes ⊆ (written.map (Proc.devRef (τ := τ) .tc)).toFinset :=
  ⟨writes_sub_of rfl (by decide), writes_sub_of rfl (by decide), writes_sub_of rfl (by decide)⟩

theorem ops_writes : (ops : List (HloOp τ sig (Elt F))).Forall fun op => op.writes ⊆ (written.map (Proc.devRef (τ := τ) .tc)).toFinset :=
  List.forall_append.2 ⟨opsA_writes, List.forall_append.2 ⟨opsB_writes, List.forall_append.2 ⟨opsC_writes, List.forall_append.2 ⟨opsD_writes, opsE_writes⟩⟩⟩⟩

/-- No operation writes argument 0: it ends as launched. -/
theorem kept_arg0 (m : (ℓ : Loc nD τ sig) → Buf (Elt F) ℓ) (c : Dev nD) :
    after ops (launchContents m c) (Proc.devRef .tc main_arg0) = m ((c.tc : Thread nD τ).loc main_arg0) :=
  after_of_writes_sub (W := written) ops (launchContents m c) ops_writes (by decide)
/-- No operation writes argument 1: it ends as launched. -/
theorem kept_arg1 (m : (ℓ : Loc nD τ sig) → Buf (Elt F) ℓ) (c : Dev nD) :
    after ops (launchContents m c) (Proc.devRef .tc main_arg1) = m ((c.tc : Thread nD τ).loc main_arg1) :=
  after_of_writes_sub (W := written) ops (launchContents m c) ops_writes (by decide)
/-- No operation writes argument 2: it ends as launched. -/
theorem kept_arg2 (m : (ℓ : Loc nD τ sig) → Buf (Elt F) ℓ) (c : Dev nD) :
    after ops (launchContents m c) (Proc.devRef .tc main_arg2) = m ((c.tc : Thread nD τ).loc main_arg2) :=
  after_of_writes_sub (W := written) ops (launchContents m c) ops_writes (by decide)
/-- No operation writes argument 3: it ends as launched. -/
theorem kept_arg3 (m : (ℓ : Loc nD τ sig) → Buf (Elt F) ℓ) (c : Dev nD) :
    after ops (launchContents m c) (Proc.devRef .tc main_arg3) = m ((c.tc : Thread nD τ).loc main_arg3) :=
  after_of_writes_sub (W := written) ops (launchContents m c) ops_writes (by decide)
/-- No operation writes argument 4: it ends as launched. -/
theorem kept_arg4 (m : (ℓ : Loc nD τ sig) → Buf (Elt F) ℓ) (c : Dev nD) :
    after ops (launchContents m c) (Proc.devRef .tc main_arg4) = m ((c.tc : Thread nD τ).loc main_arg4) :=
  after_of_writes_sub (W := written) ops (launchContents m c) ops_writes (by decide)
/-- No operation writes argument 5: it ends as launched. -/
theorem kept_arg5 (m : (ℓ : Loc nD τ sig) → Buf (Elt F) ℓ) (c : Dev nD) :
    after ops (launchContents m c) (Proc.devRef .tc main_arg5) = m ((c.tc : Thread nD τ).loc main_arg5) :=
  after_of_writes_sub (W := written) ops (launchContents m c) ops_writes (by decide)
/-- No operation writes argument 6: it ends as launched. -/
theorem kept_arg6 (m : (ℓ : Loc nD τ sig) → Buf (Elt F) ℓ) (c : Dev nD) :
    after ops (launchContents m c) (Proc.devRef .tc main_arg6) = m ((c.tc : Thread nD τ).loc main_arg6) :=
  after_of_writes_sub (W := written) ops (launchContents m c) ops_writes (by decide)

/-- The reference runs — every weakly fair execution terminates without a fault — and its seven argument arrays end
    unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c)⟩)
    (run_after m ρ)

end Cert.ReferenceIdeal.RefRun

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.RefDense.lean ====
/-
  The reference's dense part, entry by entry, at the ideal instance.

  feat = x @ w + b  (a dot_general, the bias made a row and repeated down the rows) reads at (r, j) as
  (sum over k of x(r,k) * w(k,j)) + b(j).  A score vector is feat against 64 consecutive rows of the 128 by 1
  attention weights (a slice, a dot_general to a column, a reshape to a vector): at node r it is
  sum over c of feat(r,c) * wa(o + c, 0).
-/
import proofs.«161817_j71579924955533_1_alg».proof.Proof.Gen.ReferenceIdeal
import proofs.«161817_j71579924955533_1_alg».proof.Proof.Spec
import proofs.«161817_j71579924955533_1_alg».proof.Proof.LibMatmulRows
import proofs.«161817_j71579924955533_1_alg».proof.Proof.LibHostBroadcast
import Idealize.ShloMosaic.Lib.ValueLayout
import Idealize.ShloMosaic.Lib.Pipeline.Value
import Idealize.ShloMosaic.PureOps.Ideal.Laws

noncomputable section

namespace Cert.ReferenceIdeal.Dense

open Cert.ReferenceIdeal Cert.ReferenceIdeal.Facts₀ Idealize.ShloMosaic Idealize.ShloMosaic.ValueIdx

/-- x @ w + b as the reference computes it. -/
def feat (a0 : FVec Ideal S100000x256 .f32) (a3 : FVec Ideal S256x64 .f32) (a4 : FVec Ideal S64 .f32) : FVec Ideal S100000x64 .f32 :=
  addf (Host.dotGeneral dot_S100000x256_S256x64_S100000x64_1_0_0_1_n_n none a0 a3)
    (broadcastInDim S100000x64 ![0, 1] bcast_S1x64_S100000x64_0_1 (broadcastInDim S1x64 ![1] bcast_S64_S1x64_1 a4))

/-- A score vector: the features against rows k .. k+63 of the attention weights. -/
def score (k : Nat) (hs : S128x1.Slices ![k, 0] S64x1) (hv : FVec Ideal S100000x64 .f32) (a5 : FVec Ideal S128x1 .f32) :
    FVec Ideal S100000 .f32 :=
  shapeCast S100000 (Host.dotGeneral dot_S100000x64_S64x1_S100000x1_1_0_0_1_n_n none hv (extractStridedSlice S64x1 ![k, 0] a5 hs))
    shapeCasts_S100000x1_S100000

theorem feat_apply (a0 : FVec Ideal S100000x256 .f32) (a3 : FVec Ideal S256x64 .f32) (a4 : FVec Ideal S64 .f32)
    (r : Fin 100000) (j : Fin 64) : feat a0 a3 a4 (ix2 r j) = Spec.lin a0 a3 a4 r j := by
  unfold feat Spec.lin
  rw [addf_apply]
  refine congrArg₂ (· + ·) ?_ ?_
  · exact MatmulRows.dotGeneral_apply dot_S100000x256_S256x64_S100000x64_1_0_0_1_n_n none .single rfl rfl rfl rfl
      (fun _ _ => rfl) (fun _ _ => rfl) a0 a3 (ix2 r j)
  · exact HostBroadcast.bias_apply bcast_S64_S1x64_1 bcast_S1x64_S100000x64_0_1 a4 (ix2 r j)

theorem score_apply (a0 : FVec Ideal S100000x256 .f32) (a3 : FVec Ideal S256x64 .f32) (a4 : FVec Ideal S64 .f32)
    (a5 : FVec Ideal S128x1 .f32) (k : Nat) (hk : k + 64 ≤ 128) (hs : S128x1.Slices ![k, 0] S64x1) (r : Fin 100000) :
    score k hs (feat a0 a3 a4) a5 (ix1 r) = Spec.att a0 a3 a4 a5 k hk r := by
  unfold score Spec.att
  rw [shapeCast_apply _ shapeCasts_S100000x1_S100000 (ix1 r) (ix2 r (0 : Fin 1))
    (by rw [Shape.rowMajor_val_one, Shape.rowMajor_val_two]; show r.val * 1 + 0 = r.val; omega)]
  refine (MatmulRows.dotGeneral_apply dot_S100000x64_S64x1_S100000x1_1_0_0_1_n_n none .single rfl rfl rfl rfl
      (fun _ _ => rfl) (fun _ _ => rfl) (feat a0 a3 a4) (extractStridedSlice S64x1 ![k, 0] a5 hs) (ix2 r (0 : Fin 1))).trans ?_
  refine Finset.sum_congr rfl fun c _ => ?_
  refine congrArg₂ (· * ·) (feat_apply a0 a3 a4 r c) ?_
  exact slice2_axis0_apply k a5 hs c (0 : Fin 1) _ rfl

end Cert.ReferenceIdeal.Dense

end
-- ==== Proof.RefValue.lean ====
/- The reference program's result as one function of its arguments, at the ideal instance: after the run the result
   buffer holds the layer's edge part (the tail function) applied to the dense features x @ w + b, to the two score
   vectors the features give against the two halves of the attention weights, and to the edge list, the edge weights
   and the attention bias as launched; the seven argument arrays end unchanged. -/
import proofs.«161817_j71579924955533_1_alg».proof.Proof.RefRun
import proofs.«161817_j71579924955533_1_alg».proof.Proof.Tail
import proofs.«161817_j71579924955533_1_alg».proof.Proof.RefDense
import Idealize.ShloMosaic.PureOps.Ideal

set_option maxRecDepth 16384

noncomputable section

namespace Cert.ReferenceIdeal.RefValue

open Cert.ReferenceIdeal Cert.ReferenceIdeal.RefRun Idealize.ShloMosaic Idealize.ShloMosaic.TcCoe Idealize.SL.Sem Idealize.ShloMosaic.StableHlo

set_option maxHeartbeats 4000000 in
/-- The fold of @main's operations over the launch contents, read at the result buffer: each operation's result at
    its own buffer is its function of its operands' contents, and the composed term is the tail function of the
    dense features and the two score vectors by unfolding the definitions. -/
theorem result_eq (m : (ℓ : Loc nD τ sig) → Buf (Elt Ideal) ℓ) (c : Dev nD) :
    after (ops (F := Ideal)) (launchContents m c) (Proc.devRef .tc main_v63)
      = Cert.Tail.tail
          (Dense.feat (m ((c.tc : Thread nD τ).loc main_arg0)) (m ((c.tc : Thread nD τ).loc main_arg3)) (m ((c.tc : Thread nD τ).loc main_arg4)))
          (Dense.score 0 Facts₀.slices_S128x1_S64x1_0_0 (Dense.feat (m ((c.tc : Thread nD τ).loc main_arg0)) (m ((c.tc : Thread nD τ).loc main_arg3)) (m ((c.tc : Thread nD τ).loc main_arg4))) (m ((c.tc : Thread nD τ).loc main_arg5)))
          (Dense.score 64 Facts₀.slices_S128x1_S64x1_64_0 (Dense.feat (m ((c.tc : Thread nD τ).loc main_arg0)) (m ((c.tc : Thread nD τ).loc main_arg3)) (m ((c.tc : Thread nD τ).loc main_arg4))) (m ((c.tc : Thread nD τ).loc main_arg5)))
          (m ((c.tc : Thread nD τ).loc main_arg1)) (m ((c.tc : Thread nD τ).loc main_arg2)) (m ((c.tc : Thread nD τ).loc main_arg6)) := by
  simp only [ops, opsA, opsB, opsC, opsD, opsE, List.cons_append, List.nil_append, List.append_nil]
  after_results_simp
  rfl

/-- Every weakly fair execution of the reference terminates with the result buffer at that function of the launched
    arguments and the seven argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63) = Cert.Tail.tail
          (Dense.feat (m ((c.tc : Thread nD τ).loc main_arg0)) (m ((c.tc : Thread nD τ).loc main_arg3)) (m ((c.tc : Thread nD τ).loc main_arg4)))
          (Dense.score 0 Facts₀.slices_S128x1_S64x1_0_0 (Dense.feat (m ((c.tc : Thread nD τ).loc main_arg0)) (m ((c.tc : Thread nD τ).loc main_arg3)) (m ((c.tc : Thread nD τ).loc main_arg4))) (m ((c.tc : Thread nD τ).loc main_arg5)))
          (Dense.score 64 Facts₀.slices_S128x1_S64x1_64_0 (Dense.feat (m ((c.tc : Thread nD τ).loc main_arg0)) (m ((c.tc : Thread nD τ).loc main_arg3)) (m ((c.tc : Thread nD τ).loc main_arg4))) (m ((c.tc : Thread nD τ).loc main_arg5)))
          (m ((c.tc : Thread nD τ).loc main_arg1)) (m ((c.tc : Thread nD τ).loc main_arg2)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨(h c main_v63).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c)⟩)
    (run_after m ρ)

end Cert.ReferenceIdeal.RefValue

end
-- ==== Proof.Bridge.lean ====
/-
  The two programs' dense parts are one function.

  The kernel side reads the fused array back by columns: columns 0..63 are the projected features, column 64 the
  source score, column 65 the destination score. Index by index these are the reference's x @ w + b and its two
  score vectors, because both are the specification's lin and att — plain finite sums on the extended reals, where
  only commutativity and associativity of addition are used, so no finiteness of the inputs is needed.
-/
import proofs.«161817_j71579924955533_1_alg».proof.Proof.KernelTail
import proofs.«161817_j71579924955533_1_alg».proof.Proof.RefDense
import proofs.«161817_j71579924955533_1_alg».proof.Proof.Spec
import Idealize.ShloMosaic.Lib.ValueLayout
import Idealize.ShloMosaic.Lib.Pipeline.Value

noncomputable section

namespace Cert.Bridge

open Idealize.ShloMosaic Idealize.ShloMosaic.ValueIdx
open Cert.KernelIdeal.TailRead Cert.ReferenceIdeal.Dense

variable (a0 : (⟨2, ![100000, 256]⟩ : Shape).Idx → EReal) (a3 : (⟨2, ![256, 64]⟩ : Shape).Idx → EReal)
  (a4 : (⟨1, ![64]⟩ : Shape).Idx → EReal) (a5 : (⟨2, ![128, 1]⟩ : Shape).Idx → EReal)

/-- Columns 0..63 of the fused array are the reference's features. -/
theorem featCols_fused : featCols (Spec.fused a0 a3 a4 a5) = feat a0 a3 a4 := by
  funext i
  obtain ⟨r, j, rfl⟩ : ∃ (r : Fin 100000) (j : Fin 64), i = ix2 r j := ⟨i 0, i 1, eq_ix2 i⟩
  rw [feat_apply]
  unfold featCols
  rw [slice2_axis1_eq]
  exact Spec.fused_lin a0 a3 a4 a5 r _ j (by show 0 + j.val = j.val; omega)

/-- Column 64 + e of the fused array, as a vector, is the reference's score vector over rows 64 e .. 64 e + 63 of the
    attention weights. -/
theorem col_fused (e : Fin 2) (hsl : Cert.KernelIdeal.S100000x66.Slices ![0, 64 + e.val] Cert.KernelIdeal.S100000x1)
    (hs : Cert.ReferenceIdeal.S128x1.Slices ![64 * e.val, 0] Cert.ReferenceIdeal.S64x1) :
    shapeCast Cert.KernelIdeal.S100000 (extractStridedSlice Cert.KernelIdeal.S100000x1 ![0, 64 + e.val] (Spec.fused a0 a3 a4 a5) hsl)
        Cert.KernelIdeal.Facts₀.shapeCasts_S100000x1_S100000
      = score (64 * e.val) hs (feat a0 a3 a4) a5 := by
  funext i
  obtain ⟨r, rfl⟩ : ∃ r : Fin 100000, i = ix1 r := ⟨i 0, eq_ix1 i⟩
  have he : e.val < 2 := e.isLt
  rw [score_apply a0 a3 a4 a5 (64 * e.val) (by omega) hs r]
  rw [shapeCast_apply _ Cert.KernelIdeal.Facts₀.shapeCasts_S100000x1_S100000 (ix1 r) (ix2 r (0 : Fin 1))
    (by rw [Shape.rowMajor_val_one, Shape.rowMajor_val_two]; show r.val * 1 + 0 = r.val; omega)]
  rw [slice2_axis1_eq]
  rw [Spec.fused_att a0 a3 a4 a5 r _ e (by show 64 + e.val + 0 = 64 + e.val; omega)]
  unfold Spec.att2
  by_cases h0 : e.val = 0
  · rw [if_pos h0]
    have : 64 * e.val = 0 := by omega
    simp only [this]
  · rw [if_neg h0]
    have : 64 * e.val = 64 := by omega
    simp only [this]

theorem srcCol_fused : srcCol (Spec.fused a0 a3 a4 a5) = score 0 Cert.ReferenceIdeal.Facts₀.slices_S128x1_S64x1_0_0 (feat a0 a3 a4) a5 :=
  col_fused a0 a3 a4 a5 (0 : Fin 2) Cert.KernelIdeal.Facts₀.slices_S100000x66_S100000x1_0_64 Cert.ReferenceIdeal.Facts₀.slices_S128x1_S64x1_0_0

theorem dstCol_fused : dstCol (Spec.fused a0 a3 a4 a5) = score 64 Cert.ReferenceIdeal.Facts₀.slices_S128x1_S64x1_64_0 (feat a0 a3 a4) a5 :=
  col_fused a0 a3 a4 a5 (1 : Fin 2) Cert.KernelIdeal.Facts₀.slices_S100000x66_S100000x1_0_65 Cert.ReferenceIdeal.Facts₀.slices_S128x1_S64x1_64_0

end Cert.Bridge

end
-- ==== Proof.lean ====
/-
  The certificate of a graph layer with one global attention softmax:  relu(h + scatter_add(softmax(leaky_relu(
  a_src[row] + a_dst[col] + b_att)) * w * h[col])),  h = x @ W_lin + b_lin,  a_src = h @ W_att[:64],
  a_dst = h @ W_att[64:].

  The kernel computes h and the two scores in one launch over twenty 5000-row blocks, as a fused 100000 by 66 array
  (the roundings to bf16 before its two matrix products are identities on the extended reals), and the host lines
  after the launch are, operation for operation, the reference's. So the claim reduces to: the fused array's columns
  are the reference's h, a_src and a_dst, index by index — each a finite sum of products, equal without any
  finiteness of the inputs. The three frames say that each program runs to the end and leaves its seven argument
  arrays as launched; the idealization rewrote nothing, so it is preserved trivially.
-/
import proofs.«161817_j71579924955533_1_alg».proof.Defs
import proofs.«161817_j71579924955533_1_alg».proof.Proof.Gen.Kernel
import proofs.«161817_j71579924955533_1_alg».proof.Proof.Gen.KernelIdeal
import proofs.«161817_j71579924955533_1_alg».proof.Proof.Gen.ReferenceIdeal
import proofs.«161817_j71579924955533_1_alg».proof.Proof.Gen.Pre_finite_inputs
import proofs.«161817_j71579924955533_1_alg».proof.Proof.KFrame
import proofs.«161817_j71579924955533_1_alg».proof.Proof.KIFrame
import proofs.«161817_j71579924955533_1_alg».proof.Proof.KernelValue
import proofs.«161817_j71579924955533_1_alg».proof.Proof.RefValue
import proofs.«161817_j71579924955533_1_alg».proof.Proof.Bridge

noncomputable section

namespace Cert.Proof

open Idealize.ShloMosaic Idealize.SL.Sem

/-- The word-level kernel program runs and leaves its arguments as launched. -/
theorem frame_k : Cert.frame_Kernel := fun m ρ _ => Cert.Kernel.HFrame.frame (F := Bits) m ρ

/-- So does the idealized kernel program. -/
theorem frame_ki : Cert.frame_KernelIdeal := fun m ρ _ => Cert.KernelIdeal.HFrame.frame (F := Ideal) m ρ

/-- So does the reference: its run, with the result dropped. -/
theorem frame_ri : Cert.frame_ReferenceIdeal := fun m ρ _ => Cert.ReferenceIdeal.RefRun.frame (F := Ideal) m ρ

/-- The idealization rewrote no operation. -/
theorem preserves : Cert.preserves_Kernel_KernelIdeal := trivial

/-- Both idealized programs end with the tail function of the same three pieces: the kernel's fused array read by
    columns is the reference's dense part. -/
theorem algebraic : Cert.algebraic_KernelIdeal_ReferenceIdeal := by
  intro m ρ m' ρ' _ hagree
  refine ⟨fun c => Cert.KernelIdeal.Result.resultOf m c, Cert.KernelIdeal.Result.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  rw [h0, h1, h2, h3, h4, h5, h6]
  show _ = Cert.Tail.tail (Cert.KernelIdeal.TailRead.featCols _) (Cert.KernelIdeal.TailRead.srcCol _) (Cert.KernelIdeal.TailRead.dstCol _) _ _ _
  rw [Cert.Bridge.featCols_fused, Cert.Bridge.srcCol_fused, Cert.Bridge.dstCol_fused]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
